-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S512 .f32) (main_arg6 : FVec F S128x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S512x128 .f32) (main_arg3 : FVec F S512x128 .f32) (main_arg4 : FVec F S512 .f32) (main_arg5 : FVec F S512 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S384x128 : Shape := ⟨2, ![384, 128]⟩
abbrev S128x384 : Shape := ⟨2, ![128, 384]⟩
abbrev S384 : Shape := ⟨1, ![384]⟩
abbrev S1x384 : Shape := ⟨2, ![1, 384]⟩
abbrev S5000x128 : Shape := ⟨2, ![5000, 128]⟩
abbrev S5000x1 : Shape := ⟨2, ![5000, 1]⟩
abbrev S5000x384 : Shape := ⟨2, ![5000, 384]⟩
abbrev S850000x128 : Shape := ⟨2, ![850000, 128]⟩
abbrev S1x128 : Shape := ⟨2, ![1, 128]⟩

abbrev nBuf : Space → Nat
  | .hbm => 64
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S384x128, .f32⟩
  | .hbm, ⟨34, _⟩ => ⟨S128x384, .f32⟩
  | .hbm, ⟨35, _⟩ => ⟨S128x128, .f32⟩
  | .hbm, ⟨36, _⟩ => ⟨S512, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S384, .f32⟩
  | .hbm, ⟨41, _⟩ => ⟨S1x384, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S1x384, .f32⟩
  | .local _ .vmem, ⟨4, _⟩ => ⟨S128x128, .f32⟩
  | .local _ .vmem, ⟨5, _⟩ => ⟨S5000x1, .f32⟩
  | .local _ .vmem, ⟨6, _⟩ => ⟨S5000x1, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  slices_S512x128_S128x128_0_0 : S512x128.Slices ![0, 0] S128x128
  slices_S512x128_S128x128_256_0 : S512x128.Slices ![256, 0] S128x128
  slices_S512x128_S128x128_384_0 : S512x128.Slices ![384, 0] S128x128
  concatenates_S128x128_S128x128_S128x128_S384x128_d0 : Shape.Concatenates [S128x128, S128x128, S128x128] S384x128 0
  transposes_S384x128_S128x384_1_0 : S384x128.Transposes [1, 0] S128x384
  transposes_S128x128_S128x128_1_0 : S128x128.Transposes [1, 0] S128x128
  slices_S512_S128_0 : S512.Slices ![0] S128
  slices_S512_S128_256 : S512.Slices ![256] S128
  slices_S512_S128_384 : S512.Slices ![384] S128
  concatenates_S128_S128_S128_S384_d0 : Shape.Concatenates [S128, S128, S128] S384 0
  shapeCasts_S384_S1x384 : S384.ShapeCasts S1x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  slices_S5000x384_o0_0_S5000x128 : S5000x384.Slices ![0, 0] S5000x128
  slices_S5000x384_o0_128_S5000x128 : S5000x384.Slices ![0, 128] S5000x128
  slices_S5000x384_o0_256_S5000x128 : S5000x384.Slices ![0, 256] S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S5000x128_S128x384_S5000x384_1_0_0_1_n_n_wf : DotDims.WF S5000x128 S128x384 S5000x384 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S128x512 : Shape := ⟨2, ![128, 512]⟩
abbrev S50000x512 : Shape := ⟨2, ![50000, 512]⟩
abbrev S1x512 : Shape := ⟨2, ![1, 512]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128x128, .f32⟩
  | .hbm, ⟨7, _⟩ => ⟨S128, .f32⟩
  | .hbm, ⟨8, _⟩ => ⟨S128x512, .f32⟩
  | .hbm, ⟨9, _⟩ => ⟨S50000x512, .f32⟩
  | .hbm, ⟨10, _⟩ => ⟨S1x512, .f32⟩
  | .hbm, ⟨11, _⟩ => ⟨S50000x512, .f32⟩
  | .hbm, ⟨12, _⟩ => ⟨S50000x512, .f32⟩
  | .hbm, ⟨13, _⟩ => ⟨S1x512, .f32⟩
  | .hbm, ⟨14, _⟩ => ⟨S50000x512, .f32⟩
  | .hbm, ⟨15, _⟩ => ⟨S50000x512, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000, .i32⟩
  | .hbm, ⟨41, _⟩ => ⟨S1x800000, .i32⟩
  | .hbm, ⟨42, _⟩ => ⟨S800000, .i32⟩
  | .hbm, ⟨43, _⟩ => ⟨S850000, .i32⟩
  | .hbm, ⟨44, _⟩ => ⟨S1x800000, .i32⟩
  | .hbm, ⟨45, _⟩ => ⟨S800000, .i32⟩
  | .hbm, ⟨46, _⟩ => ⟨S850000, .i32⟩
  | .hbm, ⟨47, _⟩ => ⟨S_, .f32⟩
  | .hbm, ⟨48, _⟩ => ⟨S850000, .f32⟩
  | .hbm, ⟨49, _⟩ => ⟨S_, .f32⟩
  | .hbm, ⟨50, _⟩ => ⟨S50000, .f32⟩
  | .hbm, ⟨51, _⟩ => ⟨S850000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .i1⟩
  | .hbm, ⟨56, _⟩ => ⟨S50000, .f32⟩
  | .hbm, ⟨57, _⟩ => ⟨S_, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S850000, .f32⟩
  | .hbm, ⟨80, _⟩ => ⟨S128x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_v42 : Ref sig .tc := ⟨.hbm, 60, rfl⟩
abbrev main_c : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call1_cst : Ref sig .tc := ⟨.hbm, 101, rfl⟩
abbrev main_call1_v0 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x512_S50000x512_1_0_0_1_n_n_wf : DotDims.WF S50000x128 S128x512 S50000x512 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KDefs.lean ====
/-
  What the pipelined region finds and leaves, as definitions: the contents of every buffer when the region is
  entered (the host operations before it applied to the launch memory), each window's block at a grid point, the
  output block the body stores (the one store's payload over the five input blocks), and the proof data of the
  pipeline built from them. The grid has ten points; point t works on rows 5000·t … 5000·t + 4999.
-/
import proofs.«137561_j27874337751637_2_alg».proof.Proof.Gen.Kernel.Launch
import proofs.«137561_j27874337751637_2_alg».proof.Proof.Gen.Kernel.Skeleton
import proofs.«137561_j27874337751637_2_alg».proof.Proof.Gen.Kernel.Points
import Idealize.ShloMosaic.Lib.Pipeline.FrameBody
import Idealize.ShloMosaic.Lib.Pipeline.FrameSuffix

set_option maxRecDepth 16384

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The buffers' contents when the region is entered: the three stretches of host operations before it, in
    order, applied to the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole rectangle of each staging buffer's shape: what the body's loads and its store go through. -/
abbrev rX : Rect S5000x128 := Rect.unit (s := S5000x128) ![0, 0] S5000x128.size inb_S5000x128_S5000x128_0_0
abbrev rW : Rect S128x384 := Rect.unit (s := S128x384) ![0, 0] S128x384.size inb_S128x384_S128x384_0_0
abbrev rB : Rect S1x384 := Rect.unit (s := S1x384) ![0, 0] S1x384.size inb_S1x384_S1x384_0_0
abbrev rG : Rect S128x128 := Rect.unit (s := S128x128) ![0, 0] S128x128.size inb_S128x128_S128x128_0_0
abbrev rD : Rect S5000x1 := Rect.unit (s := S5000x1) ![0, 0] S5000x1.size inb_S5000x1_S5000x1_0_0

/-- The output block after the body, from the five input blocks: the one store's payload, covering the block. -/
def out0_5 (x0 : Vec F S5000x128 .f32) (x1 : Vec F S128x384 .f32) (x2 : Vec F S1x384 .f32)
    (x3 : Vec F S128x128 .f32) (x4 : Vec F S5000x1 .f32) : Vec F S5000x128 .f32 :=
  View.canon [⟨rX, k0_pay1 (View.ld x0 rX) (View.ld x1 rW) (View.ld x2 rB) (View.ld x3 rG) (View.ld x4 rD)⟩]

/-- The proof data of the pipeline on core c: the arrays as the region finds them; after the body at point t
    each input's buffer still at its block and the output's at the stored block; nothing else used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

end Cert.Kernel.Frm

end
-- ==== Proof.KFrame.lean ====
/-
  The frame of the program around its one pipelined region. The host operations before the region write none of the
  eight argument arrays, so the region finds them as launched; the region's body, at every one of the ten grid
  points, loads its five input blocks whole, loads the output block (a value it never uses) and stores one block
  covering the output buffer, so the input blocks stay in place and the output block is the store's payload over
  them; the host operations after the region write neither an argument array nor an array of the pipeline. Hence
  the program terminates with every argument array as launched.
-/
import proofs.«137561_j27874337751637_2_alg».proof.Proof.KDefs
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor
/-- No operation of this stretch allocates a buffer. -/
theorem hostOps1_1_fresh : (hostOps1_1 : List (HloOp τ sig (Elt F))).Forall fun op => op.fresh = ∅ := by
  simp only [List.Forall]; repeat' constructor

/-- The program is the three stretches of host operations before the region, the region, and the two stretches after
    it: it reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the pipeline's arrays and the buffers that bypass the region only: each
    operation's buffers are unscoped references of the core, and every such reference is one or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- No operation of the first stretch after the region writes an array of the pipeline: each writes its own result
    buffer only, and that is none of the six arrays. -/
theorem hostOps1_keeps : (hostOps1 : List (HloOp τ sig (Elt F))).Forall fun op =>
    ∀ w, Proc.devRef .tc (Pipeline.arrRef spec0 w) ∉ op.writes := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- Nor does one of the second stretch. -/
theorem hostOps1_1_keeps : (hostOps1_1 : List (HloOp τ sig (Elt F))).Forall fun op =>
    ∀ w, Proc.devRef .tc (Pipeline.arrRef spec0 w) ∉ op.writes := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- So the operations after the region write no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp hostOps1_keeps) op hop
  · exact (List.forall_iff_forall_mem.mp hostOps1_1_keeps) op hop

/-! ## The argument arrays before and after the region -/

/-- No host operation before the region writes argument array 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument array 1, and it is no array of the pipeline: it ends as
    launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes argument array 2, and it is no array of the pipeline: it ends as
    launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes argument array 3, and it is no array of the pipeline: it ends as
    launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument array 4, and it is no array of the pipeline: it ends as
    launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument array 5, and it is no array of the pipeline: it ends as
    launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes argument array 6, and it is no array of the pipeline: it ends as
    launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes argument array 7, and it is no array of the pipeline: it ends as
    launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The input windows' buffers at a point -/

/-- Input window 0's current staging buffer holds its block at every point, fetched there or not, for any proof
    data whose array is the region-entry contents and whose body leaves the block in place: where the window is not
    fetched its block index has not moved, so the block left there is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: where the window is not
    fetched its block index has not moved, so the block left there is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: where the window is not
    fetched its block index has not moved, so the block left there is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: where the window is not
    fetched its block index has not moved, so the block left there is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: where the window is not
    fetched its block index has not moved, so the block left there is this point's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The frame claim's post from the frame run's -/

/-- For any proof data whose arrays are the region-entry contents, a run ending with every array of the pipeline at
    what the proof data compute and every other unscoped buffer as the operations after the region leave it ends
    with the eight argument arrays as launched: argument array 0 is input window 0's array, which the pipeline only
    reads; the other seven are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body -/

/-- The body's one store covers the output buffer. -/
theorem cover0_5 (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The kernel body on whole staging buffers, the five inputs' at read contents x0 … x4 and the output's at anything,
    runs to the continuation holding the inputs' as they were and the output's at the stored block: six loads, the
    last one (of the output buffer) of a value nothing uses, then the one store, which covers the buffer, so what
    it held before does not matter. -/
theorem sound_kernel (c : Dev nD) (E : Set ℕ) (i : grid0.Coords)
    (arg1 : Memref sig .tc .vmem S5000x128 .f32) (harg1 : arg1.IsWhole)
    (arg2 : Memref sig .tc .vmem S128x384 .f32) (harg2 : arg2.IsWhole)
    (arg3 : Memref sig .tc .vmem S1x384 .f32) (harg3 : arg3.IsWhole)
    (arg4 : Memref sig .tc .vmem S128x128 .f32) (harg4 : arg4.IsWhole)
    (arg5 : Memref sig .tc .vmem S5000x1 .f32) (harg5 : arg5.IsWhole)
    (arg6 : Memref sig .tc .vmem S5000x128 .f32) (harg6 : arg6.IsWhole)
    (x0 : Vec F S5000x128 .f32) (x1 : Vec F S128x384 .f32) (x2 : Vec F S1x384 .f32) (x3 : Vec F S128x128 .f32) (x4 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__lstm_gcn_kernel i arg1 harg1 arg2 harg2 arg3 harg3 arg4 harg4 arg5 harg5 arg6 harg6) K := by
  simp only [cc0__lstm_gcn_kernel_eq_skeleton]; unfold cc0__lstm_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the cores terminates, and every final state has every array of the pipeline at what the proof data
    compute and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs, terminates without fault, and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frm

end
-- ==== Proof.KIDefs.lean ====
/-
  What the pipelined region finds and leaves, as definitions: the contents of every buffer when the region is
  entered (the host operations before it applied to the launch memory), each window's block at a grid point, the
  output block the body stores (the one store's payload over the five input blocks), and the proof data of the
  pipeline built from them. The grid has ten points; point t works on rows 5000·t … 5000·t + 4999.
-/
import proofs.«137561_j27874337751637_2_alg».proof.Proof.Gen.KernelIdeal.Launch
import proofs.«137561_j27874337751637_2_alg».proof.Proof.Gen.KernelIdeal.Skeleton
import proofs.«137561_j27874337751637_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The buffers' contents when the region is entered: the three stretches of host operations before it, in
    order, applied to the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole rectangle of each staging buffer's shape: what the body's loads and its store go through. -/
abbrev rX : Rect S5000x128 := Rect.unit (s := S5000x128) ![0, 0] S5000x128.size inb_S5000x128_S5000x128_0_0
abbrev rW : Rect S128x384 := Rect.unit (s := S128x384) ![0, 0] S128x384.size inb_S128x384_S128x384_0_0
abbrev rB : Rect S1x384 := Rect.unit (s := S1x384) ![0, 0] S1x384.size inb_S1x384_S1x384_0_0
abbrev rG : Rect S128x128 := Rect.unit (s := S128x128) ![0, 0] S128x128.size inb_S128x128_S128x128_0_0
abbrev rD : Rect S5000x1 := Rect.unit (s := S5000x1) ![0, 0] S5000x1.size inb_S5000x1_S5000x1_0_0

/-- The output block after the body, from the five input blocks: the one store's payload, covering the block. -/
def out0_5 (x0 : Vec F S5000x128 .f32) (x1 : Vec F S128x384 .f32) (x2 : Vec F S1x384 .f32)
    (x3 : Vec F S128x128 .f32) (x4 : Vec F S5000x1 .f32) : Vec F S5000x128 .f32 :=
  View.canon [⟨rX, k0_pay1 (View.ld x0 rX) (View.ld x1 rW) (View.ld x2 rB) (View.ld x3 rG) (View.ld x4 rD)⟩]

/-- The proof data of the pipeline on core c: the arrays as the region finds them; after the body at point t
    each input's buffer still at its block and the output's at the stored block; nothing else used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

end Cert.KernelIdeal.Frm

end
-- ==== Proof.KIFrame.lean ====
/-
  The frame of the program around its one pipelined region. The host operations before the region write none of the
  eight argument arrays, so the region finds them as launched; the region's body, at every one of the ten grid
  points, loads its five input blocks whole, loads the output block (a value it never uses) and stores one block
  covering the output buffer, so the input blocks stay in place and the output block is the store's payload over
  them; the host operations after the region write neither an argument array nor an array of the pipeline. Hence
  the program terminates with every argument array as launched.
-/
import proofs.«137561_j27874337751637_2_alg».proof.Proof.KIDefs
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor
/-- No operation of this stretch allocates a buffer. -/
theorem hostOps1_1_fresh : (hostOps1_1 : List (HloOp τ sig (Elt F))).Forall fun op => op.fresh = ∅ := by
  simp only [List.Forall]; repeat' constructor

/-- The program is the three stretches of host operations before the region, the region, and the two stretches after
    it: it reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the pipeline's arrays and the buffers that bypass the region only: each
    operation's buffers are unscoped references of the core, and every such reference is one or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- No operation of the first stretch after the region writes an array of the pipeline: each writes its own result
    buffer only, and that is none of the six arrays. -/
theorem hostOps1_keeps : (hostOps1 : List (HloOp τ sig (Elt F))).Forall fun op =>
    ∀ w, Proc.devRef .tc (Pipeline.arrRef spec0 w) ∉ op.writes := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- Nor does one of the second stretch. -/
theorem hostOps1_1_keeps : (hostOps1_1 : List (HloOp τ sig (Elt F))).Forall fun op =>
    ∀ w, Proc.devRef .tc (Pipeline.arrRef spec0 w) ∉ op.writes := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- So the operations after the region write no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp hostOps1_keeps) op hop
  · exact (List.forall_iff_forall_mem.mp hostOps1_1_keeps) op hop

/-! ## The argument arrays before and after the region -/

/-- No host operation before the region writes argument array 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument array 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument array 1, and it is no array of the pipeline: it ends as
    launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes argument array 2, and it is no array of the pipeline: it ends as
    launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes argument array 3, and it is no array of the pipeline: it ends as
    launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument array 4, and it is no array of the pipeline: it ends as
    launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument array 5, and it is no array of the pipeline: it ends as
    launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes argument array 6, and it is no array of the pipeline: it ends as
    launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes argument array 7, and it is no array of the pipeline: it ends as
    launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, List.flatten_cons, List.flatten_nil, List.append_nil, List.cons_append,
        List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The input windows' buffers at a point -/

/-- Input window 0's current staging buffer holds its block at every point, fetched there or not, for any proof
    data whose array is the region-entry contents and whose body leaves the block in place: where the window is not
    fetched its block index has not moved, so the block left there is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: where the window is not
    fetched its block index has not moved, so the block left there is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: where the window is not
    fetched its block index has not moved, so the block left there is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: where the window is not
    fetched its block index has not moved, so the block left there is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: where the window is not
    fetched its block index has not moved, so the block left there is this point's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The frame claim's post from the frame run's -/

/-- For any proof data whose arrays are the region-entry contents, a run ending with every array of the pipeline at
    what the proof data compute and every other unscoped buffer as the operations after the region leave it ends
    with the eight argument arrays as launched: argument array 0 is input window 0's array, which the pipeline only
    reads; the other seven are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body -/

/-- The body's one store covers the output buffer. -/
theorem cover0_5 (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The kernel body on whole staging buffers, the five inputs' at read contents x0 … x4 and the output's at anything,
    runs to the continuation holding the inputs' as they were and the output's at the stored block: six loads, the
    last one (of the output buffer) of a value nothing uses, then the one store, which covers the buffer, so what
    it held before does not matter. -/
theorem sound_kernel (c : Dev nD) (E : Set ℕ) (i : grid0.Coords)
    (arg1 : Memref sig .tc .vmem S5000x128 .f32) (harg1 : arg1.IsWhole)
    (arg2 : Memref sig .tc .vmem S128x384 .f32) (harg2 : arg2.IsWhole)
    (arg3 : Memref sig .tc .vmem S1x384 .f32) (harg3 : arg3.IsWhole)
    (arg4 : Memref sig .tc .vmem S128x128 .f32) (harg4 : arg4.IsWhole)
    (arg5 : Memref sig .tc .vmem S5000x1 .f32) (harg5 : arg5.IsWhole)
    (arg6 : Memref sig .tc .vmem S5000x128 .f32) (harg6 : arg6.IsWhole)
    (x0 : Vec F S5000x128 .f32) (x1 : Vec F S128x384 .f32) (x2 : Vec F S1x384 .f32) (x3 : Vec F S128x128 .f32) (x4 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__lstm_gcn_kernel i arg1 harg1 arg2 harg2 arg3 harg3 arg4 harg4 arg5 harg5 arg6 harg6) K := by
  simp only [cc0__lstm_gcn_kernel_eq_skeleton]; unfold cc0__lstm_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the cores terminates, and every final state has every array of the pipeline at what the proof data
    compute and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs, terminates without fault, and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frm

end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.LibFactorSum.lean ====
/-
  The law that joins the two programs: a node's normalisation factor may be applied once, to the sum of the
  messages arriving at the node, instead of to each message.

  On the extended reals a factor distributes over a sum when it is a non-negative number other than +inf (a
  product with an infinity of either sign, or with zero, is then the same on both sides). The factor of node n
  is such a number: it is the reciprocal square root of a positive degree, or zero.
-/
import Idealize.ShloMosaic.PureOps.Ideal

noncomputable section
open scoped BigOperators
namespace Cert.LibFactorSum

/-- A non-negative factor other than +inf distributes over a finite sum of extended reals. -/
theorem mul_sum_of_nonneg {ι : Type} (s : Finset ι) (d : EReal) (hd : 0 ≤ d) (hd' : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd hd', ih]

/-- The sum of the messages reaching one node, scaled once by the node's factor d, is the sum of the messages
    each scaled by the sender's factor and by the receiver's factor, when the receiver's factor of every
    message that does reach the node is d. -/
theorem factor_out {M : Nat} (d : EReal) (hd : 0 ≤ d) (hd' : d ≠ ⊤) (c : Fin M → Prop) [DecidablePred c]
    (a s t : Fin M → EReal) (ht : ∀ e, c e → t e = d) :
    d * (0 + ∑ e : Fin M, if c e then a e * s e else 0)
      = 0 + ∑ e : Fin M, if c e then a e * (s e * t e) else 0 := by
  rw [zero_add, zero_add, mul_sum_of_nonneg _ d hd hd']
  refine Finset.sum_congr rfl fun e _ => ?_
  by_cases h : c e
  · rw [if_pos h, if_pos h, ht e h, mul_comm (s e) d, ← mul_assoc (a e), mul_comm (a e) d, mul_assoc]
  · rw [if_neg h, if_neg h, mul_zero]

/-- The reciprocal square root of a positive extended real is a non-negative number other than +inf. -/
theorem rsqrt_nonneg_ne_top (x : EReal) (hx : 0 < x) : 0 ≤ Idealize.ShloMosaic.Ideal.rsqrt x ∧ Idealize.ShloMosaic.Ideal.rsqrt x ≠ ⊤ := by
  induction x using EReal.rec with
  | bot => exact absurd hx (by simp)
  | top =>
    have h : Idealize.ShloMosaic.Ideal.rsqrt (⊤ : EReal) = 0 := rfl
    rw [h]; exact ⟨le_refl 0, EReal.zero_ne_top⟩
  | coe r =>
    have hr : 0 < r := by exact_mod_cast hx
    have h : Idealize.ShloMosaic.Ideal.rsqrt (r : EReal)
        = if r < 0 then ⊥ else if r = 0 then ⊤ else (((Real.sqrt r)⁻¹ : ℝ) : EReal) := rfl
    rw [h, if_neg (not_lt.mpr hr.le), if_neg hr.ne']
    exact ⟨by exact_mod_cast (inv_nonneg.mpr (Real.sqrt_nonneg r)), EReal.coe_ne_top _⟩

end Cert.LibFactorSum
end
-- ==== Proof.Spec.lean ====
/-
  The functions the two programs compute, index by index, on the extended reals.

  A node p has 128 features x(p, ·). Its four LSTM gate pre-activations are rows of w_ih against x(p, ·) plus both
  biases; with zero initial state only the input, cell and output gates matter (columns k, 256 + k and 384 + k
  for hidden unit k), and the hidden state is  sigmoid(o) · tanh(sigmoid(i) · tanh(g)).  The node's message is
  the hidden state against the rows of w_gcn. The graph has 850000 edges (the 800000 given ones, then one
  self-loop per node); edge e sends from node src(e) to node dst(e). A node's factor is the reciprocal square
  root of its in-degree when that is positive, else zero.

  The reference scales each message by the sender's and the receiver's factor and then adds up the messages
  arriving at a node (`outRef`); the kernel scales each node's message by the node's own factor once, adds up,
  and scales the sum by the receiver's factor (`outKer`). Both add the bias and clamp at zero.

  Index words: a negative word used for a READ is first moved up by the node count (`wrapW`), then clamped into
  the node range (`nodeR`); a word used to ACCUMULATE is read signed, and an edge whose word is outside the node
  range contributes nothing.
-/
import Idealize.ShloMosaic.PureOps.Ideal
import Idealize.ShloMosaic.Lib.ValueIdx
import Idealize.ShloMosaic.PureOps.Ideal.Laws
import proofs.«137561_j27874337751637_2_alg».proof.Proof.LibNodeScatter
import proofs.«137561_j27874337751637_2_alg».proof.Proof.LibFactorSum

noncomputable section
open scoped BigOperators
namespace Cert.Gcn

open Idealize.ShloMosaic Idealize.ShloMosaic.ValueIdx

abbrev SX : Shape := ⟨2, ![50000, 128]⟩
abbrev SW : Shape := ⟨2, ![512, 128]⟩
abbrev SBias : Shape := ⟨1, ![512]⟩
abbrev SG : Shape := ⟨2, ![128, 128]⟩
abbrev SNode : Shape := ⟨1, ![50000]⟩
abbrev SEdge : Shape := ⟨1, ![850000]⟩
abbrev SOutB : Shape := ⟨1, ![128]⟩

/-- Gate column j's pre-activation at node p: row j of w_ih against x(p, ·), plus the two biases in turn. -/
def gate (x : SX.Idx → EReal) (w : SW.Idx → EReal) (bi bh : SBias.Idx → EReal) (p : Fin 50000) (j : Fin 512) : EReal :=
  (∑ k : Fin 128, x (ix2 p k) * w (ix2 j k)) + bi (ix1 j) + bh (ix1 j)

/-- The gate columns of hidden unit k: input, cell, output. -/
def colI (k : Fin 128) : Fin 512 := ⟨k.val, by omega⟩
def colG (k : Fin 128) : Fin 512 := ⟨256 + k.val, by omega⟩
def colO (k : Fin 128) : Fin 512 := ⟨384 + k.val, by omega⟩

/-- The kernel keeps only the input, cell and output gates: its 384 gate columns are columns 0–127, 256–383
    and 384–511 of the 512. -/
def sel (j : Fin 384) : Fin 512 := ⟨if j.val < 128 then j.val else j.val + 128, by split <;> omega⟩

theorem sel_I (k : Fin 128) : sel ⟨k.val, by omega⟩ = colI k := by
  unfold sel colI; refine Fin.ext ?_; show (if k.val < 128 then k.val else k.val + 128) = k.val
  rw [if_pos k.isLt]
theorem sel_G (k : Fin 128) : sel ⟨128 + k.val, by omega⟩ = colG k := by
  unfold sel colG; refine Fin.ext ?_; show (if 128 + k.val < 128 then 128 + k.val else 128 + k.val + 128) = 256 + k.val
  rw [if_neg (by omega)]; omega
theorem sel_O (k : Fin 128) : sel ⟨256 + k.val, by omega⟩ = colO k := by
  unfold sel colO; refine Fin.ext ?_; show (if 256 + k.val < 128 then 256 + k.val else 256 + k.val + 128) = 384 + k.val
  rw [if_neg (by omega)]; omega

/-- Hidden unit k of node p after the one LSTM step from zero state. -/
def hidden (x : SX.Idx → EReal) (w : SW.Idx → EReal) (bi bh : SBias.Idx → EReal) (p : Fin 50000) (k : Fin 128) : EReal :=
  Ideal.logistic (gate x w bi bh p (colO k))
    * Ideal.tanh (Ideal.logistic (gate x w bi bh p (colI k)) * Ideal.tanh (gate x w bi bh p (colG k)))

/-- Feature d of node p's message: the hidden state against row d of w_gcn. -/
def msg (x : SX.Idx → EReal) (w : SW.Idx → EReal) (bi bh : SBias.Idx → EReal) (wg : SG.Idx → EReal)
    (p : Fin 50000) (d : Fin 128) : EReal :=
  ∑ k : Fin 128, hidden x w bi bh p k * wg (ix2 d k)

/-- A negative index word moved up by the node count. -/
def wrapW (x : BitVec 32) : BitVec 32 := Scalar.select (IntOp.cmpi .slt x 0#32) (IntOp.addi x 50000#32) x

/-- The node a word names when it is used to read: moved up if negative, then clamped into the node range. -/
def nodeR (x : BitVec 32) : Fin 50000 := Cert.LibNodes.nodeOf 50000 (by decide) (wrapW x)

/-- The reference's result at (n, d): the messages reaching n, each scaled by both ends' factors. -/
def outRef (M : SX.Idx → EReal) (dis : SNode.Idx → EReal) (src dst : SEdge.Idx → BitVec 32) (b : SOutB.Idx → EReal)
    (n : Fin 50000) (d : Fin 128) : EReal :=
  max ((0 + ∑ e : Fin 850000, if (dst (ix1 e)).toInt = (n.val : ℤ)
      then M (ix2 (nodeR (src (ix1 e))) d) * (dis (ix1 (nodeR (src (ix1 e)))) * dis (ix1 (nodeR (dst (ix1 e))))) else 0)
    + b (ix1 d)) 0

/-- The kernel's result at (n, d): the already scaled messages O reaching n, their sum scaled by n's factor. -/
def outKer (O : SX.Idx → EReal) (dis : SNode.Idx → EReal) (src dst : SEdge.Idx → BitVec 32) (b : SOutB.Idx → EReal)
    (n : Fin 50000) (d : Fin 128) : EReal :=
  max (dis (ix1 n) * (0 + ∑ e : Fin 850000, if (dst (ix1 e)).toInt = (n.val : ℤ)
      then O (ix2 (nodeR (src (ix1 e))) d) else 0) + b (ix1 d)) 0

/-- A word whose signed value is a node is not moved, and names that node. -/
theorem nodeR_of_toInt (x : BitVec 32) (n : Fin 50000) (h : x.toInt = (n.val : ℤ)) : nodeR x = n := by
  have hn := n.isLt
  have hs : x.slt 0#32 = false := by
    rw [BitVec.slt, decide_eq_false_iff_not, not_lt, h]
    show ((0#32 : BitVec 32).toInt) ≤ _
    rw [show (0#32 : BitVec 32).toInt = 0 from rfl]; omega
  have hw : wrapW x = x := by
    unfold wrapW IntOp.cmpi Scalar.select
    rw [hs]; rfl
  unfold nodeR Cert.LibNodes.nodeOf
  refine Fin.ext ?_
  show min (wrapW x).toInt.toNat (50000 - 1) = n.val
  rw [hw, h]; omega

/-- The two results agree when every factor is a non-negative number other than +inf and the kernel's scaled
    message is the message times the sender's factor. -/
theorem outKer_eq_outRef (M O : SX.Idx → EReal) (dis : SNode.Idx → EReal) (src dst : SEdge.Idx → BitVec 32)
    (b : SOutB.Idx → EReal) (hdis : ∀ n : Fin 50000, 0 ≤ dis (ix1 n) ∧ dis (ix1 n) ≠ ⊤)
    (hO : ∀ (p : Fin 50000) (d : Fin 128), O (ix2 p d) = M (ix2 p d) * dis (ix1 p)) (n : Fin 50000) (d : Fin 128) :
    outKer O dis src dst b n d = outRef M dis src dst b n d := by
  unfold outKer outRef
  refine congrArg (fun z => max (z + b (ix1 d)) 0) ?_
  simp only [hO]
  exact Cert.LibFactorSum.factor_out (dis (ix1 n)) (hdis n).1 (hdis n).2
    (fun e : Fin 850000 => (dst (ix1 e)).toInt = (n.val : ℤ))
    (fun e => M (ix2 (nodeR (src (ix1 e))) d)) (fun e => dis (ix1 (nodeR (src (ix1 e)))))
    (fun e => dis (ix1 (nodeR (dst (ix1 e))))) (fun e he => by rw [nodeR_of_toInt _ n he])

/-- A node's factor from its degree g: the reciprocal square root where g is positive, else zero. -/
def factor (g : EReal) : EReal :=
  Scalar.select (Ideal.cmp .ogt g (Ideal.ofBits .f32 0x00000000#32)) (Ideal.rsqrt g) (Ideal.ofBits .f32 0x00000000#32)

/-- Whatever the degree, the factor is a non-negative number other than +inf. -/
theorem factor_nonneg_ne_top (g : EReal) : 0 ≤ factor g ∧ factor g ≠ ⊤ := by
  unfold factor Scalar.select
  rw [Ideal.ofBits_zero_f32]
  by_cases h : Ideal.cmp .ogt g 0 = 1
  · rw [if_pos h]
    have hg : 0 < g := by
      unfold Ideal.cmp at h
      by_contra hn
      simp only [hn, decide_false] at h
      exact absurd h (by decide)
    exact Cert.LibFactorSum.rsqrt_nonneg_ne_top g hg
  · rw [if_neg h]; exact ⟨le_refl 0, EReal.zero_ne_top⟩

end Cert.Gcn
end
-- ==== Proof.LibGather1.lean ====
/-
  Entries of a vector gathered through a column of index words, read at an index.

  The operand is a vector of `N` entries; the indices are a column of `M` words, each naming an entry; the result
  is a vector of `M` entries. Result entry `e` is the operand's entry `idx[e]`, the word read signed and clamped
  into `[0, N − 1]`.
-/
import Idealize.ShloMosaic.PureOps.Ideal
import Idealize.ShloMosaic.Lib.ValueIdx

noncomputable section
namespace Cert.LibGather1

open Idealize.ShloMosaic Idealize.ShloMosaic.ValueIdx

/-- The dimension numbers of a gather of single entries of a vector: a column of `M` start indices, the one
    operand axis collapsed, no window axis in the result. -/
abbrev entryGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The entry a start-index word names: read signed and clamped into `[0, N − 1]`. -/
def entryOf (N : Nat) (hN : 0 < N) {w : Nat} (x : BitVec w) : Fin N := ⟨min x.toInt.toNat (N - 1), by omega⟩

/-- The entry gather read at `e`: the operand at the entry `idx[e]` names. -/
theorem gather_entries_apply {α : Type} {N M w : Nat} (hN : 0 < N)
    (wfg : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryGatherDims N M wfg) x idx (ix1 e) = x (ix1 (entryOf N hN (idx (ix2 e (0 : Fin 1))))) := by
  unfold Host.gather
  refine congrArg x (funext fun a => Fin.ext ?_)
  obtain rfl : a = 0 := Subsingleton.elim _ _
  have hst : (entryGatherDims N M wfg).start (ix1 e) idx 0 = min (idx (ix2 e (0 : Fin 1))).toInt.toNat (N - 1) := by
    unfold GatherDims.start
    rw [dif_pos (show (0 : Fin 1) ∈ (entryGatherDims N M wfg).startIndexMap from List.mem_singleton.mpr rfl)]
    have hsi : (entryGatherDims N M wfg).siIdx (ix1 e) ⟨List.idxOf (0 : Fin 1) (entryGatherDims N M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  show (entryGatherDims N M wfg).start (ix1 e) idx 0 + (entryGatherDims N M wfg).batchCoord (ix1 e) 0
    + (entryGatherDims N M wfg).offCoord (ix1 e) 0 = min (idx (ix2 e (0 : Fin 1))).toInt.toNat (N - 1)
  have h2 : (entryGatherDims N M wfg).batchCoord (ix1 e) 0 = 0 := rfl
  have h3 : (entryGatherDims N M wfg).offCoord (ix1 e) 0 = 0 := rfl
  rw [hst, h2, h3]; rfl

end Cert.LibGather1
end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.RefValue.lean ====
/-
  The reference's result read at an index.

  Node p's gate pre-activations are rows of w_ih against its features plus the two biases in turn; its hidden
  state is sigmoid(o) · tanh(sigmoid(i) · tanh(g)) with each sigmoid spelt 1 / (1 + exp(−·)); its message at
  feature d is the hidden state against row d of w_gcn (`msg_apply`). A node's factor is the reciprocal square
  root of its degree where that is positive, else zero (`dis_apply`). An edge reads its sender's message row and
  both ends' factors through its index words, each moved up by the node count when negative and then clamped
  into the node range; the products are accumulated at the node the receiver word names when read signed; the
  bias is added and the result clamped at zero (`out_apply`).
-/
import proofs.«137561_j27874337751637_2_alg».proof.Proof.RefReadP
import proofs.«137561_j27874337751637_2_alg».proof.Proof.Spec
import proofs.«137561_j27874337751637_2_alg».proof.Proof.LibNodeScatter
import proofs.«137561_j27874337751637_2_alg».proof.Proof.LibGather1
import proofs.«137561_j27874337751637_2_alg».proof.Proof.LibHostRead

noncomputable section
open scoped BigOperators
namespace Cert.RefValue

open Cert.ReferenceIdeal Cert.ReferenceIdeal.ReadP Idealize.ShloMosaic Idealize.ShloMosaic.ValueIdx

/-- The word 0x3F800000 is the number one. -/
theorem one_f32 : Ideal.ofBits .f32 0x3F800000#32 = 1 := by
  simp [Ideal.ofBits, Ideal.ieee]
  norm_cast
  norm_num

/-- The reference's gate pre-activations: row j of w_ih against the node's features, plus the two biases in turn. -/
theorem gate_apply (x0 : (⟨S50000x128, .f32⟩ : BufTy).Contents (Elt Ideal))
    (x2 : (⟨S512x128, .f32⟩ : BufTy).Contents (Elt Ideal)) (x4 x5 : (⟨S512, .f32⟩ : BufTy).Contents (Elt Ideal))
    (p : Fin 50000) (j : Fin 512) :
    val_main_v7 (F := Ideal) x0 x2 x4 x5 (ix2 p j) = Cert.Gcn.gate x0 x2 x4 x5 p j := by
  have el : ∀ k : Fin 128, lidx_main_v1 (ix2 p j) k = ix2 p k := fun k =>
    funext fun a => Fin.ext (by match a with | ⟨0, _⟩ => rfl | ⟨1, _⟩ => rfl)
  have er : ∀ k : Fin 128, idx_main_v0 (ridx_main_v1 (ix2 p j) k) = ix2 j k := fun k =>
    funext fun a => Fin.ext (by match a with | ⟨0, _⟩ => rfl | ⟨1, _⟩ => rfl)
  have e4 : idx_main_v2 (idx_main_v3 (ix2 p j)) = ix1 j :=
    funext fun a => Fin.ext (by match a with | ⟨0, _⟩ => rfl)
  have e5 : idx_main_v5 (idx_main_v6 (ix2 p j)) = ix1 j :=
    funext fun a => Fin.ext (by match a with | ⟨0, _⟩ => rfl)
  rw [val_main_v7_apply, val_main_v4_apply, val_main_v1_apply, val_main_v3_apply, val_main_v2_apply,
    val_main_v6_apply, val_main_v5_apply, e4, e5]
  simp only [val_main_v0_apply, el, er]
  rfl

/-- The reference's hidden state: the output gate's sigmoid times tanh of the input gate's sigmoid times tanh of
    the cell gate, each sigmoid spelt 1 / (1 + exp (−·)). -/
theorem hidden_apply (x0 : (⟨S50000x128, .f32⟩ : BufTy).Contents (Elt Ideal))
    (x2 : (⟨S512x128, .f32⟩ : BufTy).Contents (Elt Ideal)) (x4 x5 : (⟨S512, .f32⟩ : BufTy).Contents (Elt Ideal))
    (p : Fin 50000) (k : Fin 128) :
    val_main_v27 (F := Ideal) x0 x2 x4 x5 (ix2 p k) = Cert.Gcn.hidden x0 x2 x4 x5 p k := by
  have eI : idx_main_v8 (ix2 p k) = ix2 p (Cert.Gcn.colI k) :=
    funext fun a => Fin.ext (by match a with | ⟨0, _⟩ => rfl | ⟨1, _⟩ => rfl)
  have eG : idx_main_v10 (ix2 p k) = ix2 p (Cert.Gcn.colG k) :=
    funext fun a => Fin.ext (by match a with | ⟨0, _⟩ => rfl | ⟨1, _⟩ => rfl)
  have eO : idx_main_v11 (ix2 p k) = ix2 p (Cert.Gcn.colO k) :=
    funext fun a => Fin.ext (by match a with | ⟨0, _⟩ => rfl | ⟨1, _⟩ => rfl)
  rw [val_main_v27_apply, val_main_v25_apply, val_main_v24_apply, val_main_cst_2_apply, val_main_v23_apply,
    val_main_v22_apply, val_main_cst_1_apply, val_main_v21_apply, val_main_v20_apply, val_main_v11_apply, eO,
    val_main_v26_apply, val_main_v19_apply, val_main_v17_apply, val_main_v16_apply, val_main_cst_0_apply,
    val_main_v15_apply, val_main_v14_apply, val_main_cst_apply, val_main_v13_apply, val_main_v12_apply,
    val_main_v8_apply, eI, val_main_v18_apply, val_main_v10_apply, eG,
    gate_apply, gate_apply, gate_apply]
  simp only [Ideal.mulf_def, Ideal.hostDivf_def, Ideal.addf_def, Ideal.hostUnary_exp_def, Ideal.hostUnary_tanh_def,
    Ideal.hostNegf_def, Ideal.negf_def, Ideal.ofBits_def, one_f32]
  rfl

/-- The reference's message of node p at feature d: the hidden state against row d of w_gcn. -/
theorem msg_apply (x0 : (⟨S50000x128, .f32⟩ : BufTy).Contents (Elt Ideal))
    (x2 : (⟨S512x128, .f32⟩ : BufTy).Contents (Elt Ideal)) (x4 x5 : (⟨S512, .f32⟩ : BufTy).Contents (Elt Ideal))
    (x6 : (⟨S128x128, .f32⟩ : BufTy).Contents (Elt Ideal)) (p : Fin 50000) (d : Fin 128) :
    val_main_v59 (F := Ideal) x0 x2 x4 x5 x6 (ix2 p d) = Cert.Gcn.msg x0 x2 x4 x5 x6 p d := by
  rw [val_main_v59_apply]
  unfold Cert.Gcn.msg
  refine Finset.sum_congr rfl fun k _ => ?_
  have el : lidx_main_v59 (ix2 p d) k = ix2 p k :=
    funext fun a => Fin.ext (by match a with | ⟨0, _⟩ => rfl | ⟨1, _⟩ => rfl)
  have er : idx_main_v58 (ridx_main_v59 (ix2 p d) k) = ix2 d k :=
    funext fun a => Fin.ext (by match a with | ⟨0, _⟩ => rfl | ⟨1, _⟩ => rfl)
  rw [val_main_v58_apply, el, er, hidden_apply]

/-- The reference's factor of node n: the reciprocal square root of the degree where that is positive, else zero. -/
theorem dis_apply (x1 : (⟨S2x800000, .i32⟩ : BufTy).Contents (Elt Ideal)) (n : Fin 50000) :
    val_main_v42 (F := Ideal) x1 (ix1 n) = Cert.Gcn.factor (val_main_v38 (F := Ideal) x1 (ix1 n)) := by
  rw [val_main_v42_apply, val_main_v40_apply, val_main_v41_apply, val_main_v39_apply, val_main_cst_5_apply,
    val_main_call0_v1_apply, val_main_call0_v0_apply, val_main_cst_6_apply]
  generalize val_main_v38 (F := Ideal) x1 (ix1 n) = g
  rfl

/-- An edge's sender word as the reference reads it: moved up by the node count when negative. -/
theorem wrap47 (x1 : (⟨S2x800000, .i32⟩ : BufTy).Contents (Elt Ideal)) (e : Fin 850000) :
    val_main_v47 (F := Ideal) x1 (ix1 e) = Cert.Gcn.wrapW (val_main_v31 (F := Ideal) x1 (ix1 e)) := by
  rw [val_main_v47_apply, val_main_v44_apply, val_main_v46_apply, val_main_v43_apply, val_main_c_apply,
    val_main_v45_apply, val_main_c_7_apply]
  generalize val_main_v31 (F := Ideal) x1 (ix1 e) = w
  rfl

/-- An edge's receiver word as the reference reads it. -/
theorem wrap54 (x1 : (⟨S2x800000, .i32⟩ : BufTy).Contents (Elt Ideal)) (e : Fin 850000) :
    val_main_v54 (F := Ideal) x1 (ix1 e) = Cert.Gcn.wrapW (val_main_v34 (F := Ideal) x1 (ix1 e)) := by
  rw [val_main_v54_apply, val_main_v51_apply, val_main_v53_apply, val_main_v50_apply, val_main_c_8_apply,
    val_main_v52_apply, val_main_c_9_apply]
  generalize val_main_v34 (F := Ideal) x1 (ix1 e) = w
  rfl

/-- The sender word again, where the messages are read. -/
theorem wrap64 (x1 : (⟨S2x800000, .i32⟩ : BufTy).Contents (Elt Ideal)) (e : Fin 850000) :
    val_main_v64 (F := Ideal) x1 (ix1 e) = Cert.Gcn.wrapW (val_main_v31 (F := Ideal) x1 (ix1 e)) := by
  rw [val_main_v64_apply, val_main_v61_apply, val_main_v63_apply, val_main_v60_apply, val_main_c_10_apply,
    val_main_v62_apply, val_main_c_11_apply]
  generalize val_main_v31 (F := Ideal) x1 (ix1 e) = w
  rfl

/-- Edge e's sender factor: the factor array at the node the sender word names. -/
theorem v49_apply (x1 : (⟨S2x800000, .i32⟩ : BufTy).Contents (Elt Ideal)) (e : Fin 850000) :
    val_main_v49 (F := Ideal) x1 (ix1 e)
      = val_main_v42 (F := Ideal) x1 (ix1 (Cert.Gcn.nodeR (val_main_v31 (F := Ideal) x1 (ix1 e)))) := by
  have e48 : idx_main_v48 (ix2 e (0 : Fin 1)) = ix1 e :=
    funext fun a => Fin.ext (by match a with | ⟨0, _⟩ => rfl)
  unfold val_main_v49
  refine (Cert.LibGather1.gather_entries_apply (N := 50000) (M := 850000) (by decide) _
    (val_main_v42 (F := Ideal) x1) (val_main_v48 (F := Ideal) x1) e).trans ?_
  rw [val_main_v48_apply, e48, wrap47]
  generalize val_main_v31 (F := Ideal) x1 (ix1 e) = w
  rfl

/-- Edge e's receiver factor: the factor array at the node the receiver word names. -/
theorem v56_apply (x1 : (⟨S2x800000, .i32⟩ : BufTy).Contents (Elt Ideal)) (e : Fin 850000) :
    val_main_v56 (F := Ideal) x1 (ix1 e)
      = val_main_v42 (F := Ideal) x1 (ix1 (Cert.Gcn.nodeR (val_main_v34 (F := Ideal) x1 (ix1 e)))) := by
  have e55 : idx_main_v55 (ix2 e (0 : Fin 1)) = ix1 e :=
    funext fun a => Fin.ext (by match a with | ⟨0, _⟩ => rfl)
  unfold val_main_v56
  refine (Cert.LibGather1.gather_entries_apply (N := 50000) (M := 850000) (by decide) _
    (val_main_v42 (F := Ideal) x1) (val_main_v55 (F := Ideal) x1) e).trans ?_
  rw [val_main_v55_apply, e55, wrap54]
  generalize val_main_v34 (F := Ideal) x1 (ix1 e) = w
  rfl

/-- Edge e's message row: the message array's row at the node the sender word names. -/
theorem v66_apply (x0 : (⟨S50000x128, .f32⟩ : BufTy).Contents (Elt Ideal)) (x1 : (⟨S2x800000, .i32⟩ : BufTy).Contents (Elt Ideal))
    (x2 : (⟨S512x128, .f32⟩ : BufTy).Contents (Elt Ideal)) (x4 x5 : (⟨S512, .f32⟩ : BufTy).Contents (Elt Ideal))
    (x6 : (⟨S128x128, .f32⟩ : BufTy).Contents (Elt Ideal)) (e : Fin 850000) (d : Fin 128) :
    val_main_v66 (F := Ideal) x0 x1 x2 x4 x5 x6 (ix2 e d)
      = val_main_v59 (F := Ideal) x0 x2 x4 x5 x6 (ix2 (Cert.Gcn.nodeR (val_main_v31 (F := Ideal) x1 (ix1 e))) d) := by
  have e65 : idx_main_v65 (ix2 e (0 : Fin 1)) = ix1 e :=
    funext fun a => Fin.ext (by match a with | ⟨0, _⟩ => rfl)
  unfold val_main_v66
  refine (Cert.LibNodes.gather_nodes_apply (N := 50000) (D := 128) (M := 850000) (by decide) _
    (val_main_v59 (F := Ideal) x0 x2 x4 x5 x6) (val_main_v65 (F := Ideal) x1) e d).trans ?_
  rw [val_main_v65_apply, e65, wrap64]
  generalize val_main_v31 (F := Ideal) x1 (ix1 e) = w
  rfl

/-- An accumulating row scatter into an array that is zero at (n, d), read at (n, d): the sum, over the rows
    whose index word read signed is n, of the update's entry at feature d. -/
theorem scatter_read {N D M w : Nat} (wf : ScatterDims.WF ⟨2, ![N, D]⟩ ⟨2, ![M, 1]⟩ ⟨2, ![M, D]⟩ [1] [0] [0] 1)
    (x : FVec Ideal ⟨2, ![N, D]⟩ .f32) (idx : IVec ⟨2, ![M, 1]⟩ w) (upd : FVec Ideal ⟨2, ![M, D]⟩ .f32)
    (n : Fin N) (d : Fin D) (c : Fin M → BitVec w) (g : Fin M → EReal)
    (hx : x (ix2 n d) = 0) (hc : ∀ e : Fin M, idx (ix2 e (0 : Fin 1)) = c e)
    (hg : ∀ e : Fin M, upd (ix2 e d) = g e) :
    (Host.scatterAdd (F := Ideal) (Cert.LibNodes.nodeScatterDims N D M wf) x idx upd (ix2 n d) : EReal)
      = 0 + ∑ e : Fin M, if (c e).toInt = (n.val : ℤ) then g e else 0 := by
  show Ideal.hostScatterAdd (Cert.LibNodes.nodeScatterDims N D M wf) x idx upd (ix2 n d) = _
  refine (Cert.LibNodes.hostScatterAdd_nodes_apply wf x idx upd n d).trans ?_
  rw [hx]
  refine congrArg (fun z : EReal => 0 + z) (Finset.sum_congr rfl fun e _ => ?_)
  rw [hc, hg]

/-- The accumulated array at (n, d): the messages of the edges whose receiver word, read signed, is n, each
    scaled by its sender's and its receiver's factor. -/
theorem v72_apply (x0 : (⟨S50000x128, .f32⟩ : BufTy).Contents (Elt Ideal)) (x1 : (⟨S2x800000, .i32⟩ : BufTy).Contents (Elt Ideal))
    (x2 : (⟨S512x128, .f32⟩ : BufTy).Contents (Elt Ideal)) (x4 x5 : (⟨S512, .f32⟩ : BufTy).Contents (Elt Ideal))
    (x6 : (⟨S128x128, .f32⟩ : BufTy).Contents (Elt Ideal)) (n : Fin 50000) (d : Fin 128) :
    (val_main_v72 (F := Ideal) x0 x1 x2 x4 x5 x6 (ix2 n d) : EReal)
      = 0 + ∑ e : Fin 850000, if (val_main_v34 (F := Ideal) x1 (ix1 e)).toInt = (n.val : ℤ)
          then val_main_v59 (F := Ideal) x0 x2 x4 x5 x6 (ix2 (Cert.Gcn.nodeR (val_main_v31 (F := Ideal) x1 (ix1 e))) d)
            * (val_main_v42 (F := Ideal) x1 (ix1 (Cert.Gcn.nodeR (val_main_v31 (F := Ideal) x1 (ix1 e))))
              * val_main_v42 (F := Ideal) x1 (ix1 (Cert.Gcn.nodeR (val_main_v34 (F := Ideal) x1 (ix1 e)))))
          else 0 := by
  have h70 : val_main_v70 (F := Ideal) (ix2 n d) = 0 := by
    rw [val_main_v70_apply, val_main_cst_12_apply, Ideal.ofBits_def, Ideal.ofBits_zero_f32]
  have h71 : ∀ e : Fin 850000, val_main_v71 (F := Ideal) x1 (ix2 e (0 : Fin 1)) = val_main_v34 (F := Ideal) x1 (ix1 e) := by
    intro e
    have e71 : idx_main_v71 (ix2 e (0 : Fin 1)) = ix1 e :=
      funext fun a => Fin.ext (by match a with | ⟨0, _⟩ => rfl)
    rw [val_main_v71_apply, e71]
  have h69 : ∀ e : Fin 850000, val_main_v69 (F := Ideal) x0 x1 x2 x4 x5 x6 (ix2 e d)
      = val_main_v59 (F := Ideal) x0 x2 x4 x5 x6 (ix2 (Cert.Gcn.nodeR (val_main_v31 (F := Ideal) x1 (ix1 e))) d)
        * (val_main_v42 (F := Ideal) x1 (ix1 (Cert.Gcn.nodeR (val_main_v31 (F := Ideal) x1 (ix1 e))))
          * val_main_v42 (F := Ideal) x1 (ix1 (Cert.Gcn.nodeR (val_main_v34 (F := Ideal) x1 (ix1 e))))) := by
    intro e
    have e67 : idx_main_v67 (idx_main_v68 (ix2 e d)) = ix1 e :=
      funext fun a => Fin.ext (by match a with | ⟨0, _⟩ => rfl)
    rw [val_main_v69_apply, v66_apply, val_main_v68_apply, val_main_v67_apply, e67,
      val_main_v57_apply, v49_apply, v56_apply]
    rfl
  unfold val_main_v72
  exact scatter_read (N := 50000) (D := 128) (M := 850000) Facts₀.scatter_S50000x128_S850000x1_S850000x128_1_0_0_1_wf
    (val_main_v70 (F := Ideal)) (val_main_v71 (F := Ideal) x1) (val_main_v69 (F := Ideal) x0 x1 x2 x4 x5 x6) n d
    (fun e => val_main_v34 (F := Ideal) x1 (ix1 e))
    (fun e => val_main_v59 (F := Ideal) x0 x2 x4 x5 x6 (ix2 (Cert.Gcn.nodeR (val_main_v31 (F := Ideal) x1 (ix1 e))) d)
        * (val_main_v42 (F := Ideal) x1 (ix1 (Cert.Gcn.nodeR (val_main_v31 (F := Ideal) x1 (ix1 e))))
          * val_main_v42 (F := Ideal) x1 (ix1 (Cert.Gcn.nodeR (val_main_v34 (F := Ideal) x1 (ix1 e))))))
    h70 h71 h69

/-- The reference's result at (n, d): the accumulated array plus the bias, clamped at zero. -/
theorem out_apply (x0 : (⟨S50000x128, .f32⟩ : BufTy).Contents (Elt Ideal)) (x1 : (⟨S2x800000, .i32⟩ : BufTy).Contents (Elt Ideal))
    (x2 : (⟨S512x128, .f32⟩ : BufTy).Contents (Elt Ideal)) (x4 x5 : (⟨S512, .f32⟩ : BufTy).Contents (Elt Ideal))
    (x6 : (⟨S128x128, .f32⟩ : BufTy).Contents (Elt Ideal)) (x7 : (⟨S128, .f32⟩ : BufTy).Contents (Elt Ideal)) (n : Fin 50000) (d : Fin 128) :
    val_main_v76 (F := Ideal) x0 x1 x2 x4 x5 x6 x7 (ix2 n d)
      = Cert.Gcn.outRef (val_main_v59 (F := Ideal) x0 x2 x4 x5 x6) (val_main_v42 (F := Ideal) x1)
          (val_main_v31 (F := Ideal) x1) (val_main_v34 (F := Ideal) x1) x7 n d := by
  have e74 : idx_main_v73 (idx_main_v74 (ix2 n d)) = ix1 d :=
    funext fun a => Fin.ext (by match a with | ⟨0, _⟩ => rfl)
  rw [val_main_v76_apply, val_main_v75_apply, val_main_v74_apply, val_main_v73_apply, e74,
    val_main_call1_v0_apply, val_main_call1_cst_apply, Ideal.ofBits_def, Ideal.ofBits_zero_f32]
  exact congrArg (fun z : EReal => max (z + x7 (ix1 d)) 0) (v72_apply x0 x1 x2 x4 x5 x6 n d)

end Cert.RefValue
end
-- ==== Proof.KRun.lean ====
/-
  The kernel program's run with its result named: the result buffer ends at what the operations after the region
  compute from the region's output array and the buffers the region passed by; the arguments end as launched.
-/
import proofs.«137561_j27874337751637_2_alg».proof.Proof.KIFrame

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The result buffer after the run, on core c. -/
def resK (c : Dev nD) : Buf (Elt F) ((c.tc : Thread nD τ).loc main_v44) :=
  Pipeline.afterTail₀ cfgs (dats m) 0 (V0 m) [hostOps1, hostOps1_1] c main_v44

set_option backward.isDefEq.respectTransparency.types false in
theorem run_value : θ_run defs (onTc (τ := τ) (main (F := F))) ⟨m, fun _ => 0, ρ⟩ (fun r => ∀ c : Dev nD,
      r.2.mem ((c.tc : Thread nD τ).loc main_v44) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v44 (Pipeline.mem_restRefs_of main_v44 (by decide) (by decide)),
      ((h c).1 0).trans ((((dats m) 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Frm

end
-- ==== Proof.KTail.lean ====
/-
  The host operations after the pipelined region, read at an entry, on the extended reals.

  After the region the program wraps each source word (a negative word is moved up by the node count), gathers the
  region's output rows at the wrapped source words, adds up the gathered rows at their destination words starting
  from zero, scales row n of the sum by the factor of node n, adds the bias row, and clamps at zero. Read at entry
  (n, d) this is the kernel-side result function of the specification, over whatever the region's output array, the
  factor column, the two index vectors and the bias hold when these operations start.
-/
import proofs.«137561_j27874337751637_2_alg».proof.Proof.KIFrame
import proofs.«137561_j27874337751637_2_alg».proof.Proof.Spec
import proofs.«137561_j27874337751637_2_alg».proof.Proof.LibNodeScatter
import proofs.«137561_j27874337751637_2_alg».proof.Proof.LibHostRead
import Idealize.ShloMosaic.Lib.StableHlo.Run
import Idealize.ShloMosaic.PureOps.Ideal.Laws

noncomputable section
open scoped BigOperators

namespace Cert.KTail

open Cert.KernelIdeal Cert.KernelIdeal.Gen Cert.KernelIdeal.Frm
open Idealize.ShloMosaic Idealize.ShloMosaic.TcCoe Idealize.ShloMosaic.ValueIdx

/-! ## The operations as one function of the five buffers they read -/

section Generic

variable {F : FTy → Type} [FloatOps F]

/-- The source words, each moved up by the node count when negative, as a column. -/
def srcCol (v3 : IVec S850000 32) : IVec S850000x1 32 :=
  broadcastInDim S850000x1 ![0] bcast_S850000_S850000x1_0
    (select (cmpi .slt v3 (broadcastInDim S850000 ![] bcast_S_S850000 (constantI S_ 32 0#32)))
      (addi v3 (broadcastInDim S850000 ![] bcast_S_S850000 (constantI S_ 32 50000#32))) v3)

/-- The rows of the region's output at the wrapped source words. -/
def gath (v28 : FVec F S50000x128 .f32) (v3 : IVec S850000 32) : FVec F S850000x128 .f32 :=
  Host.gather gather_S50000x128_S850000x1_S850000x128_1_0_n_n_0_1_1128 v28 (srcCol v3)

/-- The gathered rows added up at their destination words, from zero. -/
def scat (v28 : FVec F S50000x128 .f32) (v3 v6 : IVec S850000 32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 v6) (gath v28 v3)

/-- The program's result from the region's output array, the factor column, the source and destination words and
    the bias. -/
def tailOut (v28 : FVec F S50000x128 .f32) (v15 : FVec F S50000x1 .f32) (v3 v6 : IVec S850000 32)
    (a7 : FVec F S128 .f32) : FVec F S50000x128 .f32 :=
  maximumf
    (addf (mulf (broadcastInDim S50000x128 ![0, 1] bcast_S50000x1_S50000x128_0_1 v15) (scat v28 v3 v6))
      (broadcastInDim S50000x128 ![0, 1] bcast_S1x128_S50000x128_0_1 (broadcastInDim S1x128 ![1] bcast_S128_S1x128_1 a7)))
    (broadcastInDim S50000x128 ![] bcast_S_S50000x128 (constant S_ .f32 0x00000000#32))

set_option maxHeartbeats 1000000 in
/-- The two stretches of operations after the region, from any contents, leave in the result buffer that function
    of the five buffers: each operation's result rewritten at its own buffer, every other buffer kept. -/
theorem tail_vec (Vw : Valuation τ sig (Elt F)) :
    StableHlo.after (List.flatten [hostOps1 (F := F), hostOps1_1]) Vw (Proc.devRef .tc main_v44)
      = tailOut (Vw (Proc.devRef .tc main_v28)) (Vw (Proc.devRef .tc main_v15)) (Vw (Proc.devRef .tc main_v3))
          (Vw (Proc.devRef .tc main_v6)) (Vw (Proc.devRef .tc main_arg7)) := by
  simp only [hostOps1, hostOps1_1, List.flatten_cons, List.flatten_nil, List.append_nil, List.cons_append, List.nil_append]
  after_results_simp
  rfl

/-- Row e of the column of wrapped source words is the wrapped word e. -/
theorem srcCol_apply (v3 : IVec S850000 32) (e : Fin 850000) :
    srcCol v3 (ix2 e (0 : Fin 1)) = Cert.Gcn.wrapW (v3 (ix1 e)) := by
  unfold srcCol
  refine (Cert.LibHostRead.bid_a_a1_apply _ _ e 0).trans ?_
  show Scalar.select (IntOp.cmpi .slt (v3 (ix1 e)) (broadcastInDim S850000 ![] bcast_S_S850000 (constantI S_ 32 0#32) (ix1 e)))
      (IntOp.addi (v3 (ix1 e)) (broadcastInDim S850000 ![] bcast_S_S850000 (constantI S_ 32 50000#32) (ix1 e))) (v3 (ix1 e)) = _
  rw [Cert.LibHostRead.bid_scalar_apply, Cert.LibHostRead.bid_scalar_apply]
  rfl

/-- Row e of the gathered array is the row of the region's output that source word e names. -/
theorem gath_apply (v28 : FVec F S50000x128 .f32) (v3 : IVec S850000 32) (e : Fin 850000) (d : Fin 128) :
    gath v28 v3 (ix2 e d) = v28 (ix2 (Cert.Gcn.nodeR (v3 (ix1 e))) d) := by
  unfold gath
  refine (Cert.LibNodes.gather_nodes_apply (N := 50000) (D := 128) (M := 850000) (by decide)
    gather_S50000x128_S850000x1_S850000x128_1_0_n_n_0_1_1128_wf v28 (srcCol v3) e d).trans ?_
  rw [srcCol_apply]
  rfl

end Generic

/-! ## Read at an entry, on the extended reals -/

/-- The accumulating row scatter of the host, at any extents and for any dimension numbers that are those of a
    scatter of whole rows, read at (n, d): the operand's entry plus the update entries (e, d) of the rows e whose
    index word names node n. -/
theorem host_scatterAdd_nodes_apply {N D M w : ℕ}
    (wf : ScatterDims.WF ⟨2, ![N, D]⟩ ⟨2, ![M, 1]⟩ ⟨2, ![M, D]⟩ [1] [0] [0] 1)
    (dd : ScatterDims ⟨2, ![N, D]⟩ ⟨2, ![M, 1]⟩ ⟨2, ![M, D]⟩) (hdd : dd = Cert.LibNodes.nodeScatterDims N D M wf)
    (x : FVec Ideal ⟨2, ![N, D]⟩ .f32) (idx : IVec ⟨2, ![M, 1]⟩ w) (upd : FVec Ideal ⟨2, ![M, D]⟩ .f32) (n : Fin N) (d : Fin D) :
    Host.scatterAdd dd x idx upd (ix2 n d)
      = x (ix2 n d) + ∑ e : Fin M, if (idx (ix2 e (0 : Fin 1))).toInt = (n.val : ℤ) then upd (ix2 e d) else 0 := by
  subst hdd
  exact Cert.LibNodes.hostScatterAdd_nodes_apply wf x idx upd n d

/-- Entry (n, d) of the accumulated array: from zero, the sum over the edges whose destination word is n of entry d
    of the row of the region's output their source word names. -/
theorem scat_apply (v28 : FVec Ideal S50000x128 .f32) (v3 v6 : IVec S850000 32) (n : Fin 50000) (d : Fin 128) :
    scat v28 v3 v6 (ix2 n d) = (0 : EReal) + ∑ e : Fin 850000, if (v6 (ix1 e)).toInt = (n.val : ℤ)
      then v28 (ix2 (Cert.Gcn.nodeR (v3 (ix1 e))) d) else 0 := by
  have h0 : broadcastInDim S50000x128 ![] bcast_S_S50000x128 (constant (F := Ideal) S_ .f32 0x00000000#32) (ix2 n d) = (0 : EReal) :=
    (Cert.LibHostRead.bid_scalar_apply _ _ _).trans Ideal.ofBits_zero_f32
  have hsum : ∀ e : Fin 850000,
      (if (broadcastInDim S850000x1 ![0] bcast_S850000_S850000x1_0 v6 (ix2 e (0 : Fin 1))).toInt = (n.val : ℤ)
        then gath v28 v3 (ix2 e d) else (0 : EReal))
      = (if (v6 (ix1 e)).toInt = (n.val : ℤ) then v28 (ix2 (Cert.Gcn.nodeR (v3 (ix1 e))) d) else 0) := fun e => by
    rw [Cert.LibHostRead.bid_a_a1_apply, gath_apply]
  unfold scat
  rw [host_scatterAdd_nodes_apply scatter_S50000x128_S850000x1_S850000x128_1_0_0_1_wf scatter_S50000x128_S850000x1_S850000x128_1_0_0_1 rfl, h0, Finset.sum_congr rfl (fun e _ => hsum e)]

/-- Entry (n, d) of the program's result function: the accumulated entry scaled by node n's factor, plus the bias,
    clamped at zero. -/
theorem tailOut_apply (v28 : FVec Ideal S50000x128 .f32) (v15 : FVec Ideal S50000x1 .f32) (v3 v6 : IVec S850000 32)
    (a7 : FVec Ideal S128 .f32) (n : Fin 50000) (d : Fin 128) :
    tailOut v28 v15 v3 v6 a7 (ix2 n d)
      = max (v15 (ix2 n (0 : Fin 1)) * ((0 : EReal) + ∑ e : Fin 850000, if (v6 (ix1 e)).toInt = (n.val : ℤ)
          then v28 (ix2 (Cert.Gcn.nodeR (v3 (ix1 e))) d) else 0) + a7 (ix1 d)) 0 := by
  have h0 : broadcastInDim S50000x128 ![] bcast_S_S50000x128 (constant (F := Ideal) S_ .f32 0x00000000#32) (ix2 n d) = (0 : EReal) :=
    (Cert.LibHostRead.bid_scalar_apply _ _ _).trans Ideal.ofBits_zero_f32
  unfold tailOut
  show max (broadcastInDim S50000x128 ![0, 1] bcast_S50000x1_S50000x128_0_1 v15 (ix2 n d) * scat v28 v3 v6 (ix2 n d)
      + broadcastInDim S50000x128 ![0, 1] bcast_S1x128_S50000x128_0_1 (broadcastInDim S1x128 ![1] bcast_S128_S1x128_1 a7) (ix2 n d))
    (broadcastInDim S50000x128 ![] bcast_S_S50000x128 (constant (F := Ideal) S_ .f32 0x00000000#32) (ix2 n d)) = _
  rw [h0, scat_apply, Cert.LibHostRead.bid_a1_ab_apply, Cert.LibHostRead.bid_1b_ab_apply, Cert.LibHostRead.bid_b_1b_apply]

/-- The operations after the region, from any contents whose five buffers read as O, dis, src, dst and b, leave the
    specification's kernel-side result at entry (n, d). -/
theorem tail_read (Vw : Valuation τ sig (Elt Ideal)) (O : Cert.Gcn.SX.Idx → EReal) (dis : Cert.Gcn.SNode.Idx → EReal)
    (src dst : Cert.Gcn.SEdge.Idx → BitVec 32) (b : Cert.Gcn.SOutB.Idx → EReal)
    (hO : ∀ (p : Fin 50000) (d : Fin 128), Vw (Proc.devRef .tc main_v28) (ix2 p d) = O (ix2 p d))
    (hdis : ∀ n : Fin 50000, Vw (Proc.devRef .tc main_v15) (ix2 n (0 : Fin 1)) = dis (ix1 n))
    (hsrc : ∀ e : Fin 850000, Vw (Proc.devRef .tc main_v3) (ix1 e) = src (ix1 e))
    (hdst : ∀ e : Fin 850000, Vw (Proc.devRef .tc main_v6) (ix1 e) = dst (ix1 e))
    (hb : ∀ d : Fin 128, Vw (Proc.devRef .tc main_arg7) (ix1 d) = b (ix1 d)) (n : Fin 50000) (d : Fin 128) :
    StableHlo.after (List.flatten [hostOps1 (F := Ideal), hostOps1_1]) Vw (Proc.devRef .tc main_v44) (ix2 n d)
      = Cert.Gcn.outKer O dis src dst b n d := by
  refine (congrFun (tail_vec Vw) (ix2 n d)).trans ((tailOut_apply _ _ _ _ _ n d).trans ?_)
  unfold Cert.Gcn.outKer
  rw [hdis n, hb d]
  refine congrArg (fun z => max (dis (ix1 n) * ((0 : EReal) + z) + b (ix1 d)) 0) (Finset.sum_congr rfl fun e _ => ?_)
  rw [hdst e, hsrc e, hO]

/-! ## At the region's exit -/

variable (m : (ℓ : Loc nD τ sig) → Buf (Elt Ideal) ℓ) (c : Dev nD)

set_option backward.isDefEq.respectTransparency.types false in
/-- After the whole program the result buffer reads, at entry (n, d), the specification's kernel-side result over
    the region's output array as the pipeline leaves it and the factor column, index vectors and bias as the region
    found them: the output array is the pipeline's sixth, the factor column its fifth (an input, so unchanged), and
    the other three are no array of the pipeline. -/
theorem tail_apply (O : Cert.Gcn.SX.Idx → EReal) (dis : Cert.Gcn.SNode.Idx → EReal) (src dst : Cert.Gcn.SEdge.Idx → BitVec 32)
    (b : Cert.Gcn.SOutB.Idx → EReal)
    (hO : ∀ (p : Fin 50000) (d : Fin 128), (dats m 0 c).arrAt 5 cfg0.N (ix2 p d) = O (ix2 p d))
    (hdis : ∀ n : Fin 50000, V m c main_v15 (ix2 n (0 : Fin 1)) = dis (ix1 n))
    (hsrc : ∀ e : Fin 850000, V m c main_v3 (ix1 e) = src (ix1 e)) (hdst : ∀ e : Fin 850000, V m c main_v6 (ix1 e) = dst (ix1 e))
    (hb : ∀ d : Fin 128, V m c main_arg7 (ix1 d) = b (ix1 d)) (n : Fin 50000) (d : Fin 128) :
    (Pipeline.afterTail₀ cfgs (dats m) 0 (V0 m) [hostOps1, hostOps1_1] c main_v44 : S50000x128.Idx → EReal) (ix2 n d)
      = Cert.Gcn.outKer O dis src dst b n d := by
  unfold Pipeline.afterTail₀
  generalize hVw : Pipeline.withArrays _ _ _ _ = Vw
  have h28 : Vw (Proc.devRef .tc main_v28) = (dats m 0 c).arrAt 5 cfg0.N := by
    subst hVw; exact Pipeline.withArrays_arr spec0 launch0.win.arr_inj c _ _ 5
  have h15 : Vw (Proc.devRef .tc main_v15) = V m c main_v15 := by
    subst hVw
    exact (Pipeline.withArrays_arr spec0 launch0.win.arr_inj c _ _ 4).trans
      (((dats m 0 c).arrAt_in 4 rfl _).trans (A_eq m c 4))
  have h3 : Vw (Proc.devRef .tc main_v3) = V m c main_v3 := by
    subst hVw; exact Pipeline.withArrays_of_ne _ c (V0 m c) _ main_v3 (by decide)
  have h6 : Vw (Proc.devRef .tc main_v6) = V m c main_v6 := by
    subst hVw; exact Pipeline.withArrays_of_ne _ c (V0 m c) _ main_v6 (by decide)
  have h7 : Vw (Proc.devRef .tc main_arg7) = V m c main_arg7 := by
    subst hVw; exact Pipeline.withArrays_of_ne _ c (V0 m c) _ main_arg7 (by decide)
  exact tail_read Vw O dis src dst b (fun p d => (congrFun h28 _).trans (hO p d)) (fun n => (congrFun h15 _).trans (hdis n))
    (fun e => (congrFun h3 _).trans (hsrc e)) (fun e => (congrFun h6 _).trans (hdst e)) (fun d => (congrFun h7 _).trans (hb d)) n d

end Cert.KTail

end
-- ==== Proof.KFinal.lean ====
/-
  From blocks to the array. The grid has ten points; point t works on rows 5000·t … 5000·t + 4999 of the node
  features and of the degree column, and on the whole of the three weight arrays. What point t writes back is the
  body's payload of the five input blocks at t, so after the ten points entry (n, d) of the output array is that
  payload, for the row block n / 5000, at row n % 5000 and lane d.
-/
import proofs.«137561_j27874337751637_2_alg».proof.Proof.KIDefs
import Idealize.ShloMosaic.Lib.Pipeline.Value
import Idealize.ShloMosaic.Lib.ValueIdx

set_option maxRecDepth 16384

noncomputable section

namespace Cert.KFinal

open Cert.KernelIdeal Cert.KernelIdeal.Gen Cert.KernelIdeal.Frm
open Idealize.ShloMosaic Idealize.ShloMosaic.TcCoe Idealize.ShloMosaic.ValueIdx
open Idealize.ShloMosaic.Pipeline (Dat)

variable (m : (ℓ : Loc nD τ sig) → Buf (Elt Ideal) ℓ)

/-- The zero offsets of a whole-block rectangle, as a constant function. -/
theorem zeroOff : (![0, 0] : Fin 2 → Nat) = fun _ => 0 := funext fun a => by fin_cases a <;> rfl

/-- The block index of every window at every point, decided over the ten points: the node features, the degree
    column and the output move down one row block per point; the three weight arrays stay at block (0, 0). -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A row of block t is a row of the array. -/
theorem row_lt (t : Fin cfg0.N) (q : Fin 5000) : 5000 * t.val + q.val < 50000 := by
  have hN : cfg0.N = 10 := N_0
  have := t.isLt; have := q.isLt; omega

/-- Row q, lane k of block t of any [50000, 128] array is its row 5000·t + q: the block index of the node features'
    window is (t, 0), and a block's coordinate is index × size + the coordinate inside the block. -/
theorem read0 (X : S50000x128.Idx → EReal) (t : Fin cfg0.N) (q : Fin 5000) (k : Fin 128) :
    ((cfg0.win 0).blk t).view.read (Elt Ideal) X (ix2 q k) = X (ix2 ⟨5000 * t.val + q.val, row_lt t q⟩ k) := by
  obtain ⟨e0, e1, -⟩ := blockIndex t
  show X (((cfg0.win 0).blk t).view.emb (ix2 q k)) = X _
  have h : ((cfg0.win 0).blk t).view.emb (ix2 q k) = ix2 ⟨5000 * t.val + q.val, row_lt t q⟩ k := by
    funext a; apply Fin.ext
    match a with
    | ⟨0, _⟩ => show win0_0.index t (0 : Fin 2) * 5000 + 1 * q.val = 5000 * t.val + q.val; omega
    | ⟨1, _⟩ => show win0_0.index t (1 : Fin 2) * 128 + 1 * k.val = k.val; omega
  rw [h]

/-- Block t of the node features: rows 5000·t … 5000·t + 4999. -/
theorem blk0_apply (c : Dev nD) (t : Fin cfg0.N) (q : Fin 5000) (k : Fin 128) :
    iblk m c 0 t (ix2 q k) = V m c main_arg0 (ix2 ⟨5000 * t.val + q.val, row_lt t q⟩ k) := by
  unfold iblk
  exact read0 _ t q k

/-- The block of a window staged whole at block (0, 0) is its array: the first weight array's window. -/
theorem read1 (X : S128x384.Idx → EReal) (t : Fin cfg0.N) : ((cfg0.win 1).blk t).view.read (Elt Ideal) X = X := by
  obtain ⟨-, -, e0, e1, -⟩ := blockIndex t
  funext y
  show X (((cfg0.win 1).blk t).view.emb y) = X y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 384 + 1 * (y 1).val = (y 1).val; omega
  rw [h]

/-- The first weight array is staged whole at every point. -/
theorem blk1_eq (c : Dev nD) (t : Fin cfg0.N) : iblk m c 1 t = V m c main_v20 := by
  unfold iblk
  exact read1 _ t

/-- The same for the bias row's window. -/
theorem read2 (X : S1x384.Idx → EReal) (t : Fin cfg0.N) : ((cfg0.win 2).blk t).view.read (Elt Ideal) X = X := by
  obtain ⟨-, -, -, -, e0, e1, -⟩ := blockIndex t
  funext y
  show X (((cfg0.win 2).blk t).view.emb y) = X y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 384 + 1 * (y 1).val = (y 1).val; omega
  rw [h]

/-- The bias row is staged whole at every point. -/
theorem blk2_eq (c : Dev nD) (t : Fin cfg0.N) : iblk m c 2 t = V m c main_v27 := by
  unfold iblk
  exact read2 _ t

/-- The same for the second weight array's window. -/
theorem read3 (X : S128x128.Idx → EReal) (t : Fin cfg0.N) : ((cfg0.win 3).blk t).view.read (Elt Ideal) X = X := by
  obtain ⟨-, -, -, -, -, -, e0, e1, -⟩ := blockIndex t
  funext y
  show X (((cfg0.win 3).blk t).view.emb y) = X y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

/-- The second weight array is staged whole at every point. -/
theorem blk3_eq (c : Dev nD) (t : Fin cfg0.N) : iblk m c 3 t = V m c main_v21 := by
  unfold iblk
  exact read3 _ t

/-- Row q of block t of any [50000, 1] column is its row 5000·t + q. -/
theorem read4 (X : S50000x1.Idx → EReal) (t : Fin cfg0.N) (q : Fin 5000) (z : Fin 1) :
    ((cfg0.win 4).blk t).view.read (Elt Ideal) X (ix2 q z) = X (ix2 ⟨5000 * t.val + q.val, row_lt t q⟩ z) := by
  obtain ⟨-, -, -, -, -, -, -, -, e0, e1, -⟩ := blockIndex t
  show X (((cfg0.win 4).blk t).view.emb (ix2 q z)) = X _
  have h : ((cfg0.win 4).blk t).view.emb (ix2 q z) = ix2 ⟨5000 * t.val + q.val, row_lt t q⟩ z := by
    funext a; apply Fin.ext
    match a with
    | ⟨0, _⟩ => show win0_4.index t (0 : Fin 2) * 5000 + 1 * q.val = 5000 * t.val + q.val; omega
    | ⟨1, _⟩ => show win0_4.index t (1 : Fin 2) * 1 + 1 * z.val = z.val; omega
  rw [h]

/-- Block t of the degree column: rows 5000·t … 5000·t + 4999 (any lane index of the one lane). -/
theorem blk4_apply_lane (c : Dev nD) (t : Fin cfg0.N) (q : Fin 5000) (z : Fin 1) :
    iblk m c 4 t (ix2 q z) = V m c main_v15 (ix2 ⟨5000 * t.val + q.val, row_lt t q⟩ z) := by
  unfold iblk
  exact read4 _ t q z

/-- Block t of the degree column: rows 5000·t … 5000·t + 4999. -/
theorem blk4_apply (c : Dev nD) (t : Fin cfg0.N) (q : Fin 5000) :
    iblk m c 4 t (ix2 q (0 : Fin 1)) = V m c main_v15 (ix2 ⟨5000 * t.val + q.val, row_lt t q⟩ (0 : Fin 1)) :=
  blk4_apply_lane m c t q 0

/-- The row block a row of the array lies in is one of the ten. -/
theorem rowBlock_lt (i : S50000x128.Idx) : (i 0).val / 5000 < cfg0.N := by
  have hN : cfg0.N = 10 := N_0
  have := idx2_lt0 i; omega

/-- A function given row block by row block, as one function of the array's index: entry (n, d) is row block
    n / 5000's function at (n % 5000, d). -/
def blockwise (f : Fin cfg0.N → S5000x128.Idx → EReal) : S50000x128.Idx → EReal := fun i =>
  f ⟨(i 0).val / 5000, rowBlock_lt i⟩ (ix2 ⟨(i 0).val % 5000, Nat.mod_lt _ (by decide)⟩ (i 1))

/-- At the array index that sits at row (j 0) of row block t, it is block t's function at j. -/
theorem blockwise_apply (f : Fin cfg0.N → S5000x128.Idx → EReal) (t : Fin cfg0.N) (j : S5000x128.Idx)
    (i : S50000x128.Idx) (h0 : (i 0).val = 5000 * t.val + (j 0).val) (h1 : (i 1).val = (j 1).val) :
    blockwise f i = f t j := by
  have hj := idx2_lt0 j
  have e1 : (⟨(i 0).val / 5000, rowBlock_lt i⟩ : Fin cfg0.N) = t := Fin.ext (by show (i 0).val / 5000 = t.val; omega)
  have e2 : (ix2 ⟨(i 0).val % 5000, Nat.mod_lt _ (by decide)⟩ (i 1) : S5000x128.Idx) = j := by
    funext a
    match a with
    | ⟨0, _⟩ => exact Fin.ext (by show (i 0).val % 5000 = (j 0).val; omega)
    | ⟨1, _⟩ => exact Fin.ext h1
  unfold blockwise
  rw [e1, e2]

/-- Block t of the output's window, read off a blockwise function, is block t's function: the output's block index is
    (t, 0), so its row q is row 5000·t + q of the array. (The block lies inside the array, so what is written back is
    the whole staging buffer.) -/
theorem read_blockwise (f : Fin cfg0.N → S5000x128.Idx → EReal) (t : Fin cfg0.N) :
    (cfg0.win 5).cut (grid0.coords t) (f t) = ((cfg0.win 5).blk t).view.read (Elt Ideal) (blockwise f) := by
  obtain ⟨-, -, -, -, -, -, -, -, -, -, e0, e1⟩ := blockIndex t
  funext j
  show f t j = blockwise f (((cfg0.win 5).blk t).view.emb j)
  refine (blockwise_apply f t j _ ?_ ?_).symm
  · show win0_5.index t (0 : Fin 2) * 5000 + 1 * (j 0).val = 5000 * t.val + (j 0).val; omega
  · show win0_5.index t (1 : Fin 2) * 128 + 1 * (j 1).val = (j 1).val; omega

/-- What point t leaves in the output's staging buffer: the body's payload of the five input blocks at t. -/
def pointOut (c : Dev nD) (t : Fin cfg0.N) : S5000x128.Idx → EReal :=
  k0_pay1 (F := Ideal) (iblk m c 0 t) (iblk m c 1 t) (iblk m c 2 t) (iblk m c 3 t) (iblk m c 4 t)

/-- The one store of the body goes through the whole-block rectangle, and so do its five loads: the stored block is
    the payload of the loaded blocks themselves. -/
theorem out_eq (x0 : Vec Ideal S5000x128 .f32) (x1 : Vec Ideal S128x384 .f32) (x2 : Vec Ideal S1x384 .f32)
    (x3 : Vec Ideal S128x128 .f32) (x4 : Vec Ideal S5000x1 .f32) :
    out0_5 x0 x1 x2 x3 x4 = k0_pay1 (F := Ideal) x0 x1 x2 x3 x4 := by
  unfold out0_5
  rw [View.canon_unit_zero zeroOff]
  simp only [View.ld_unit_zero (S := S5000x128) zeroOff, View.ld_unit_zero (S := S128x384) zeroOff,
    View.ld_unit_zero (S := S1x384) zeroOff, View.ld_unit_zero (S := S128x128) zeroOff,
    View.ld_unit_zero (S := S5000x1) zeroOff]

/-- What point t writes back is block t of the blockwise function of the points' payloads. -/
theorem flushed_eq (c : Dev nD) (t : Fin cfg0.N) :
    (dats m 0 c).flushed 5 t = ((cfg0.win 5).blk t).view.read (Elt Ideal) (blockwise (pointOut m c)) := by
  show (cfg0.win 5).cut (grid0.coords t) ((dats m 0 c).after 5 t) = _
  rw [after0_5, out_eq]
  exact read_blockwise (pointOut m c) t

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every index of the output array is in the block of the point of its row block. -/
theorem covered (i : S50000x128.Idx) :
    ∃ t : Fin cfg0.N, (cfg0.win 5).flush t = true ∧ i ∈ ((cfg0.win 5).blk t).view.set := by
  have hi0 := idx2_lt0 i
  have hi1 := idx2_lt1 i
  refine ⟨⟨(i 0).val / 5000, rowBlock_lt i⟩, flush0_5 _, ?_⟩
  obtain ⟨-, -, -, -, -, -, -, -, -, -, e0, e1⟩ := blockIndex ⟨(i 0).val / 5000, rowBlock_lt i⟩
  have e0' : win0_5.index ⟨(i 0).val / 5000, rowBlock_lt i⟩ (0 : Fin 2) = (i 0).val / 5000 := e0
  rw [mem_blk]
  intro a
  match a with
  | ⟨0, _⟩ => show win0_5.index ⟨(i 0).val / 5000, rowBlock_lt i⟩ (0 : Fin 2) * 5000 ≤ (i 0).val ∧ (i 0).val < win0_5.index ⟨(i 0).val / 5000, rowBlock_lt i⟩ (0 : Fin 2) * 5000 + 5000; omega
  | ⟨1, _⟩ => show win0_5.index ⟨(i 0).val / 5000, rowBlock_lt i⟩ (1 : Fin 2) * 128 ≤ (i 1).val ∧ (i 1).val < win0_5.index ⟨(i 0).val / 5000, rowBlock_lt i⟩ (1 : Fin 2) * 128 + 128; omega

/-- The output array after the ten points: the blockwise function of the points' payloads. -/
theorem final_blockwise (c : Dev nD) : (dats m 0 c).arrAt 5 cfg0.N = blockwise (pointOut m c) :=
  (dats m 0 c).arrAt_eq_of_cover 5 (blockwise (pointOut m c)) (fun t _ => flushed_eq m c t) covered

/-- Entry (n, d) of the output array: the payload of row block n / 5000's input blocks at row n % 5000, lane d. -/
theorem final_apply (c : Dev nD) (n : Fin 50000) (d : Fin 128) : (dats m 0 c).arrAt 5 cfg0.N (ix2 n d)
    = k0_pay1 (F := Ideal) (iblk m c 0 ⟨n.val / 5000, rowBlock_lt (ix2 n d)⟩) (iblk m c 1 ⟨n.val / 5000, rowBlock_lt (ix2 n d)⟩)
        (iblk m c 2 ⟨n.val / 5000, rowBlock_lt (ix2 n d)⟩) (iblk m c 3 ⟨n.val / 5000, rowBlock_lt (ix2 n d)⟩)
        (iblk m c 4 ⟨n.val / 5000, rowBlock_lt (ix2 n d)⟩) (ix2 ⟨n.val % 5000, Nat.mod_lt _ (by decide)⟩ d) := by
  rw [final_blockwise]
  rfl

/-- Block t of the node features, as a function of the row inside the block. -/
theorem blk0_eq (c : Dev nD) (t : Fin cfg0.N) :
    iblk m c 0 t = fun y : S5000x128.Idx => V m c main_arg0 (ix2 ⟨5000 * t.val + (y 0).val, row_lt t (y 0)⟩ (y 1)) := by
  funext y
  exact (congrArg (iblk m c 0 t) (eq_ix2 y)).trans (blk0_apply m c t (y 0) (y 1))

/-- Block t of the degree column, as a function of the row inside the block. -/
theorem blk4_eq (c : Dev nD) (t : Fin cfg0.N) :
    iblk m c 4 t = fun y : S5000x1.Idx => V m c main_v15 (ix2 ⟨5000 * t.val + (y 0).val, row_lt t (y 0)⟩ (y 1)) := by
  funext y
  exact (congrArg (iblk m c 4 t) (eq_ix2 y)).trans (blk4_apply_lane m c t (y 0) (y 1))

/-- A row of the row block of row (i 0) is a row of the array. -/
theorem rowOf_lt (i : S50000x128.Idx) (q : Fin 5000) : 5000 * ((i 0).val / 5000) + q.val < 50000 :=
  row_lt ⟨(i 0).val / 5000, rowBlock_lt i⟩ q

/-- the whole-array function: entry (n, d) is the payload of row-block n / 5000's inputs at row n % 5000 -/
def outArr (c : Dev nD) : S50000x128.Idx → EReal := fun i =>
  k0_pay1 (F := Ideal)
    (fun y => V m c main_arg0 (ix2 ⟨5000 * ((i 0).val / 5000) + (y 0).val, rowOf_lt i (y 0)⟩ (y 1)))
    (V m c main_v20) (V m c main_v27) (V m c main_v21)
    (fun y => V m c main_v15 (ix2 ⟨5000 * ((i 0).val / 5000) + (y 0).val, rowOf_lt i (y 0)⟩ (y 1)))
    (ix2 ⟨(i 0).val % 5000, Nat.mod_lt _ (by decide)⟩ (i 1))

/-- The blockwise function of the points' payloads, with every block read off its array, is that function. -/
theorem outArr_eq (c : Dev nD) : blockwise (pointOut m c) = outArr m c := by
  funext i
  unfold blockwise pointOut outArr
  rw [blk0_eq m c, blk1_eq m c, blk2_eq m c, blk3_eq m c, blk4_eq m c]

/-- The output array after the ten points is the whole-array function. -/
theorem final_outArr (c : Dev nD) : (dats m 0 c).arrAt 5 cfg0.N = outArr m c :=
  (final_blockwise m c).trans (outArr_eq m c)

end Cert.KFinal

end
-- ==== Proof.LibConcat3.lean ====
import Idealize.ShloMosaic.Lib.ValueIdx
import Idealize.ShloMosaic.Lib.Pipeline.Value

/-!
# Three equal pieces concatenated along the leading axis, read at an index

A concatenation of three arrays of one shape along axis 0 holds, at leading coordinate `k * n + e` (`n` the pieces'
leading extent, `k < 3`, `e < n`), piece `k` at leading coordinate `e`, the other coordinates unchanged. Stated for
matrices (rank 2) and for vectors (rank 1), one lemma per piece (pieces numbered 0, 1, 2), each from the general
statement that a concatenation read at an index is the piece whose span holds the axis coordinate.
-/

namespace Idealize.ShloMosaic.ValueIdx

open Idealize.ShloMosaic

variable {α : Type}

/-! ## Matrices stacked along the rows -/

/-- Three `n × p` matrices stacked along the rows: a row `r = e` of the first `n` reads matrix 0 at row `e`. -/
theorem concatenate3_rows_apply_0 {n N p : Nat} (x0 x1 x2 : (⟨2, ![n, p]⟩ : Shape).Idx → α)
    (h : Shape.Concatenates [(⟨2, ![n, p]⟩ : Shape), ⟨2, ![n, p]⟩, ⟨2, ![n, p]⟩] ⟨2, ![N, p]⟩ (0 : Fin 2))
    (r : Fin N) (j : Fin p) (e : Fin n) (hr : r.val = e.val) :
    concatenate ⟨2, ![N, p]⟩ (0 : Fin 2) [⟨⟨2, ![n, p]⟩, x0⟩, ⟨⟨2, ![n, p]⟩, x1⟩, ⟨⟨2, ![n, p]⟩, x2⟩] h (ix2 r j) = x0 (ix2 e j) :=
  concatenate_apply_piece (t := ⟨2, ![N, p]⟩) (0 : Fin 2) [⟨⟨2, ![n, p]⟩, x0⟩, ⟨⟨2, ![n, p]⟩, x1⟩, ⟨⟨2, ![n, p]⟩, x2⟩] h (ix2 r j) 0
    (by show 0 < 3; omega) ⟨2, ![n, p]⟩ x0 rfl rfl 0 (by simp) (ix2 e j)
    (fun b hb => match b with
      | ⟨0, _⟩ => absurd rfl hb
      | ⟨1, _⟩ => rfl)
    (by show 0 + e.val = r.val; omega)

/-- Three `n × p` matrices stacked along the rows: a row `r = n + e` of the second `n` reads matrix 1 at row `e`. -/
theorem concatenate3_rows_apply_1 {n N p : Nat} (x0 x1 x2 : (⟨2, ![n, p]⟩ : Shape).Idx → α)
    (h : Shape.Concatenates [(⟨2, ![n, p]⟩ : Shape), ⟨2, ![n, p]⟩, ⟨2, ![n, p]⟩] ⟨2, ![N, p]⟩ (0 : Fin 2))
    (r : Fin N) (j : Fin p) (e : Fin n) (hr : r.val = n + e.val) :
    concatenate ⟨2, ![N, p]⟩ (0 : Fin 2) [⟨⟨2, ![n, p]⟩, x0⟩, ⟨⟨2, ![n, p]⟩, x1⟩, ⟨⟨2, ![n, p]⟩, x2⟩] h (ix2 r j) = x1 (ix2 e j) :=
  concatenate_apply_piece (t := ⟨2, ![N, p]⟩) (0 : Fin 2) [⟨⟨2, ![n, p]⟩, x0⟩, ⟨⟨2, ![n, p]⟩, x1⟩, ⟨⟨2, ![n, p]⟩, x2⟩] h (ix2 r j) 1
    (by show 1 < 3; omega) ⟨2, ![n, p]⟩ x1 rfl rfl n (by simp) (ix2 e j)
    (fun b hb => match b with
      | ⟨0, _⟩ => absurd rfl hb
      | ⟨1, _⟩ => rfl)
    (by show n + e.val = r.val; omega)

/-- Three `n × p` matrices stacked along the rows: a row `r = n + n + e` of the last `n` reads matrix 2 at row `e`. -/
theorem concatenate3_rows_apply_2 {n N p : Nat} (x0 x1 x2 : (⟨2, ![n, p]⟩ : Shape).Idx → α)
    (h : Shape.Concatenates [(⟨2, ![n, p]⟩ : Shape), ⟨2, ![n, p]⟩, ⟨2, ![n, p]⟩] ⟨2, ![N, p]⟩ (0 : Fin 2))
    (r : Fin N) (j : Fin p) (e : Fin n) (hr : r.val = n + n + e.val) :
    concatenate ⟨2, ![N, p]⟩ (0 : Fin 2) [⟨⟨2, ![n, p]⟩, x0⟩, ⟨⟨2, ![n, p]⟩, x1⟩, ⟨⟨2, ![n, p]⟩, x2⟩] h (ix2 r j) = x2 (ix2 e j) :=
  concatenate_apply_piece (t := ⟨2, ![N, p]⟩) (0 : Fin 2) [⟨⟨2, ![n, p]⟩, x0⟩, ⟨⟨2, ![n, p]⟩, x1⟩, ⟨⟨2, ![n, p]⟩, x2⟩] h (ix2 r j) 2
    (by show 2 < 3; omega) ⟨2, ![n, p]⟩ x2 rfl rfl (n + n) (by simp) (ix2 e j)
    (fun b hb => match b with
      | ⟨0, _⟩ => absurd rfl hb
      | ⟨1, _⟩ => rfl)
    (by show (n + n) + e.val = r.val; omega)

/-! ## Vectors laid end to end -/

/-- Three vectors of length `n` laid end to end: a position `r = e` of the first `n` reads vector 0 at `e`. -/
theorem concatenate3_vec_apply_0 {n N : Nat} (x0 x1 x2 : (⟨1, ![n]⟩ : Shape).Idx → α)
    (h : Shape.Concatenates [(⟨1, ![n]⟩ : Shape), ⟨1, ![n]⟩, ⟨1, ![n]⟩] ⟨1, ![N]⟩ (0 : Fin 1))
    (r : Fin N) (e : Fin n) (hr : r.val = e.val) :
    concatenate ⟨1, ![N]⟩ (0 : Fin 1) [⟨⟨1, ![n]⟩, x0⟩, ⟨⟨1, ![n]⟩, x1⟩, ⟨⟨1, ![n]⟩, x2⟩] h (ix1 r) = x0 (ix1 e) :=
  concatenate_apply_piece (t := ⟨1, ![N]⟩) (0 : Fin 1) [⟨⟨1, ![n]⟩, x0⟩, ⟨⟨1, ![n]⟩, x1⟩, ⟨⟨1, ![n]⟩, x2⟩] h (ix1 r) 0
    (by show 0 < 3; omega) ⟨1, ![n]⟩ x0 rfl rfl 0 (by simp) (ix1 e)
    (fun b hb => match b with
      | ⟨0, _⟩ => absurd rfl hb)
    (by show 0 + e.val = r.val; omega)

/-- Three vectors of length `n` laid end to end: a position `r = n + e` of the second `n` reads vector 1 at `e`. -/
theorem concatenate3_vec_apply_1 {n N : Nat} (x0 x1 x2 : (⟨1, ![n]⟩ : Shape).Idx → α)
    (h : Shape.Concatenates [(⟨1, ![n]⟩ : Shape), ⟨1, ![n]⟩, ⟨1, ![n]⟩] ⟨1, ![N]⟩ (0 : Fin 1))
    (r : Fin N) (e : Fin n) (hr : r.val = n + e.val) :
    concatenate ⟨1, ![N]⟩ (0 : Fin 1) [⟨⟨1, ![n]⟩, x0⟩, ⟨⟨1, ![n]⟩, x1⟩, ⟨⟨1, ![n]⟩, x2⟩] h (ix1 r) = x1 (ix1 e) :=
  concatenate_apply_piece (t := ⟨1, ![N]⟩) (0 : Fin 1) [⟨⟨1, ![n]⟩, x0⟩, ⟨⟨1, ![n]⟩, x1⟩, ⟨⟨1, ![n]⟩, x2⟩] h (ix1 r) 1
    (by show 1 < 3; omega) ⟨1, ![n]⟩ x1 rfl rfl n (by simp) (ix1 e)
    (fun b hb => match b with
      | ⟨0, _⟩ => absurd rfl hb)
    (by show n + e.val = r.val; omega)

/-- Three vectors of length `n` laid end to end: a position `r = n + n + e` of the last `n` reads vector 2 at `e`. -/
theorem concatenate3_vec_apply_2 {n N : Nat} (x0 x1 x2 : (⟨1, ![n]⟩ : Shape).Idx → α)
    (h : Shape.Concatenates [(⟨1, ![n]⟩ : Shape), ⟨1, ![n]⟩, ⟨1, ![n]⟩] ⟨1, ![N]⟩ (0 : Fin 1))
    (r : Fin N) (e : Fin n) (hr : r.val = n + n + e.val) :
    concatenate ⟨1, ![N]⟩ (0 : Fin 1) [⟨⟨1, ![n]⟩, x0⟩, ⟨⟨1, ![n]⟩, x1⟩, ⟨⟨1, ![n]⟩, x2⟩] h (ix1 r) = x2 (ix1 e) :=
  concatenate_apply_piece (t := ⟨1, ![N]⟩) (0 : Fin 1) [⟨⟨1, ![n]⟩, x0⟩, ⟨⟨1, ![n]⟩, x1⟩, ⟨⟨1, ![n]⟩, x2⟩] h (ix1 r) 2
    (by show 2 < 3; omega) ⟨1, ![n]⟩ x2 rfl rfl (n + n) (by simp) (ix1 e)
    (fun b hb => match b with
      | ⟨0, _⟩ => absurd rfl hb)
    (by show (n + n) + e.val = r.val; omega)

end Idealize.ShloMosaic.ValueIdx
-- ==== Proof.LibColumn.lean ====
/-
  A column [a, 1] cast to a vector [a], read at an index: entry i of the vector is entry (i, 0) of the column
  (both are position i of the row-major order).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.KTerms.lean ====
/-
  Four vectors both programs compute from the edge array alone, each as ONE composed term: the sender of every
  edge (the 800000 given senders, then one self-loop per node), the receiver of every edge, every node's in-degree
  (a one added at the receiver of every edge), and every node's factor (the reciprocal square root of a positive
  degree, else zero). They are compared as whole terms with the reference's and are never opened.
-/
import proofs.«137561_j27874337751637_2_alg».proof.KernelIdeal
import Idealize.ShloMosaic.PureOps.Ideal

noncomputable section

namespace Cert.KTerms

open Cert.KernelIdeal Idealize.ShloMosaic

variable [Cert.KernelIdeal.Facts]
open Cert.KernelIdeal.Facts₀ Cert.KernelIdeal.Facts

/-- The sender of every edge. -/
def srcT (x1 : (⟨S2x800000, .i32⟩ : BufTy).Contents (Elt Ideal)) : (⟨S850000, .i32⟩ : BufTy).Contents (Elt Ideal) :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- The receiver of every edge. -/
def dstT (x1 : (⟨S2x800000, .i32⟩ : BufTy).Contents (Elt Ideal)) : (⟨S850000, .i32⟩ : BufTy).Contents (Elt Ideal) :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- Every node's in-degree. -/
def degT (x1 : (⟨S2x800000, .i32⟩ : BufTy).Contents (Elt Ideal)) : FVec Ideal S50000 .f32 :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 (dstT x1)) (broadcastInDim S850000 ![] bcast_S_S850000 (constant (F := Ideal) S_ .f32 0x3F800000#32))

/-- Every node's factor. -/
def disT (x1 : (⟨S2x800000, .i32⟩ : BufTy).Contents (Elt Ideal)) : FVec Ideal S50000 .f32 :=
  select (cmpf (F := Ideal) .ogt (degT x1) (broadcastInDim S50000 ![] bcast_S_S50000 (constant (F := Ideal) S_ .f32 0x00000000#32))) (Host.rsqrt (F := Ideal) (degT x1)) (broadcastInDim S50000 ![] bcast_S_S50000 (id (constant (F := Ideal) S_ .f32 0x00000000#32)))

end Cert.KTerms

end
-- ==== Proof.KHost.lean ====
/-
  What the host operations before the region leave in the buffers the region reads, for the idealized kernel
  program: the node features and the output bias as launched; the gate weights, the gate bias, the message
  weights and the factor column each as the composed term of the launch contents and read at an index; the
  two index vectors as composed terms of the edge array.
-/
import proofs.«137561_j27874337751637_2_alg».proof.Proof.KIDefs
import proofs.«137561_j27874337751637_2_alg».proof.Proof.Spec
import proofs.«137561_j27874337751637_2_alg».proof.Proof.LibConcat3
import proofs.«137561_j27874337751637_2_alg».proof.Proof.LibHostRead
import proofs.«137561_j27874337751637_2_alg».proof.Proof.LibColumn
import proofs.«137561_j27874337751637_2_alg».proof.Proof.LibKeepdims
import proofs.«137561_j27874337751637_2_alg».proof.Proof.KTerms
import Idealize.ShloMosaic.Lib.StableHlo.Run

set_option maxRecDepth 16384

noncomputable section

namespace Cert.KHost

open Cert.KernelIdeal Cert.KernelIdeal.Gen Cert.KernelIdeal.Frm
open Idealize.ShloMosaic Idealize.ShloMosaic.TcCoe Idealize.ShloMosaic.ValueIdx
open Idealize.ShloMosaic.StableHlo
open Cert.KTerms

section Nary3
variable {nD' : Nat} {τ' : Topo} {sig' : RefSig} {Val' : EltTy → Type}
/-- A three-operand operation over a literal family of references: its result with each operand's contents at
    its own reference. -/
theorem nary3_result {x a b y : Ref sig' .tc}
    (f : ((k : Fin 3) → ((![x, a, b] : Fin 3 → Ref sig' .tc) k).ty.Contents Val') → y.ty.Contents Val') (hxs hy)
    (G : Valuation τ' sig' Val') :
    (nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
end Nary3

macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))
set_option quotPrecheck false

variable (m : (ℓ : Loc nD τ sig) → Buf (Elt Ideal) ℓ) (c : Dev nD)

local notation "x0" => (m ((c.tc : Thread nD τ).loc main_arg0) : S50000x128.Idx → EReal)
local notation "x1" => (m ((c.tc : Thread nD τ).loc main_arg1) : S2x800000.Idx → BitVec 32)
local notation "x2" => (m ((c.tc : Thread nD τ).loc main_arg2) : S512x128.Idx → EReal)
local notation "x4" => (m ((c.tc : Thread nD τ).loc main_arg4) : S512.Idx → EReal)
local notation "x5" => (m ((c.tc : Thread nD τ).loc main_arg5) : S512.Idx → EReal)
local notation "x6" => (m ((c.tc : Thread nD τ).loc main_arg6) : S128x128.Idx → EReal)
local notation "x7" => (m ((c.tc : Thread nD τ).loc main_arg7) : S128.Idx → EReal)

/-! ## Each buffer the region reads, as the composed term of the launch contents -/

set_option maxHeartbeats 1000000 in
/-- The node features are no operation's result: they are as launched. -/
theorem V_x : V m c main_arg0 = x0 := by
  dsimp only [V, V0]
  simp only [hostOps0, hostOps0_1, hostOps0_2, List.flatten_cons, List.flatten_nil, List.append_nil, List.cons_append, List.nil_append]
  after_results3

set_option maxHeartbeats 1000000 in
/-- The gate weights: the three kept row blocks of w_ih stacked, transposed. -/
theorem V_w_eq : (V m c main_v20 : S128x384.Idx → EReal)
    = transpose S128x384 [1, 0] (concatenate S384x128 0
        [⟨S128x128, extractStridedSlice S128x128 ![0, 0] x2 slices_S512x128_S128x128_0_0⟩,
         ⟨S128x128, extractStridedSlice S128x128 ![256, 0] x2 slices_S512x128_S128x128_256_0⟩,
         ⟨S128x128, extractStridedSlice S128x128 ![384, 0] x2 slices_S512x128_S128x128_384_0⟩]
        concatenates_S128x128_S128x128_S128x128_S384x128_d0) transposes_S384x128_S128x384_1_0 := by
  dsimp only [V, V0]
  simp only [hostOps0, hostOps0_1, hostOps0_2, List.flatten_cons, List.flatten_nil, List.append_nil, List.cons_append, List.nil_append]
  after_results3
  rfl

set_option maxHeartbeats 1000000 in
/-- The gate bias: the three kept pieces of the summed biases laid end to end, as one row. -/
theorem V_bias_eq : (V m c main_v27 : S1x384.Idx → EReal)
    = (shapeCast S1x384 (concatenate S384 0
        [⟨S128, extractStridedSlice S128 ![0] (addf (F := Ideal) (s := S512) (φ := .f32) x4 x5) slices_S512_S128_0⟩,
         ⟨S128, extractStridedSlice S128 ![256] (addf (F := Ideal) (s := S512) (φ := .f32) x4 x5) slices_S512_S128_256⟩,
         ⟨S128, extractStridedSlice S128 ![384] (addf (F := Ideal) (s := S512) (φ := .f32) x4 x5) slices_S512_S128_384⟩]
        concatenates_S128_S128_S128_S384_d0) shapeCasts_S384_S1x384 : S1x384.Idx → EReal) := by
  dsimp only [V, V0]
  simp only [hostOps0, hostOps0_1, hostOps0_2, List.flatten_cons, List.flatten_nil, List.append_nil, List.cons_append, List.nil_append]
  after_results3
  rfl

set_option maxHeartbeats 1000000 in
/-- The message weights: w_gcn transposed. -/
theorem V_g_eq : (V m c main_v21 : S128x128.Idx → EReal) = transpose S128x128 [1, 0] x6 transposes_S128x128_S128x128_1_0 := by
  dsimp only [V, V0]
  simp only [hostOps0, hostOps0_1, hostOps0_2, List.flatten_cons, List.flatten_nil, List.append_nil, List.cons_append, List.nil_append]
  after_results3

/-! ## The factor column, stretch by stretch

The factor column is the last stretch's reshape of the called function's result, which selects between two
results of the first stretch. Each stretch is read from whatever contents it starts at, and the three readings
are chained. -/

/-- The last stretch's reshape: the factor column is the factor vector as a column, whatever the contents before. -/
theorem tail_dis (W : Valuation τ sig (Elt Ideal)) :
    (after (hostOps0_2 (F := Ideal)) W (Proc.devRef .tc main_v15) : S50000x1.Idx → EReal)
      = shapeCast S50000x1 (W (Proc.devRef .tc main_v14) : S50000.Idx → EReal) shapeCasts_S50000_S50000x1 := by
  simp only [hostOps0_2]
  after_results3
  rfl

/-- The called function: its result selects, by its first operand, between its second and the spread-out third. -/
theorem where_result (W : Valuation τ sig (Elt Ideal)) :
    (after (hostOps0_1 (F := Ideal)) W (Proc.devRef .tc main_v14) : S50000.Idx → EReal)
      = select (W (Proc.devRef .tc main_v12) : S50000.Idx → BitVec 1) (W (Proc.devRef .tc main_v13) : S50000.Idx → EReal)
          (broadcastInDim S50000 ![] bcast_S_S50000 (id (W (Proc.devRef .tc main_cst_2) : S_.Idx → EReal))) := by
  simp only [hostOps0_1]
  after_results3
  rfl

set_option maxHeartbeats 1000000 in
/-- After the first stretch: the comparison of the degrees with zero. -/
theorem head_cmp : (after (hostOps0 (F := Ideal)) (fun b => m (c, b)) (Proc.devRef .tc main_v12) : S50000.Idx → BitVec 1)
    = cmpf (F := Ideal) .ogt (degT x1) (broadcastInDim S50000 ![] bcast_S_S50000 (constant (F := Ideal) S_ .f32 0x00000000#32)) := by
  simp only [hostOps0]
  after_results3
  rfl

set_option maxHeartbeats 1000000 in
/-- After the first stretch: the reciprocal square roots of the degrees. -/
theorem head_rsqrt : (after (hostOps0 (F := Ideal)) (fun b => m (c, b)) (Proc.devRef .tc main_v13) : S50000.Idx → EReal)
    = Host.rsqrt (F := Ideal) (degT x1) := by
  simp only [hostOps0]
  after_results3
  rfl

set_option maxHeartbeats 1000000 in
/-- After the first stretch: the zero the called function spreads out. -/
theorem head_zero : (after (hostOps0 (F := Ideal)) (fun b => m (c, b)) (Proc.devRef .tc main_cst_2) : S_.Idx → EReal)
    = constant (F := Ideal) S_ .f32 0x00000000#32 := by
  simp only [hostOps0]
  after_results3

set_option maxHeartbeats 1000000 in
/-- The factors, as a column. -/
theorem V_dis_eq : (V m c main_v15 : S50000x1.Idx → EReal) = shapeCast S50000x1 (disT x1) shapeCasts_S50000_S50000x1 := by
  dsimp only [V, V0]
  rw [List.flatten_cons, List.flatten_cons, List.flatten_cons, List.flatten_nil, List.append_nil,
    StableHlo.after_append, StableHlo.after_append]
  refine (tail_dis _).trans ?_
  refine congrArg (fun z : S50000.Idx → EReal => shapeCast S50000x1 z shapeCasts_S50000_S50000x1) ?_
  refine (where_result _).trans ?_
  rw [head_cmp m c, head_rsqrt m c, head_zero m c]
  rfl

/-! ## The same read at an index -/

/-- Gate column j of the kernel's weights at feature i is w_ih's row `sel j` at feature i. -/
theorem V_w_apply (i : Fin 128) (j : Fin 384) : V m c main_v20 (ix2 i j) = x2 (ix2 (Cert.Gcn.sel j) i) := by
  refine (congrFun (V_w_eq m c) (ix2 i j)).trans ?_
  refine (transpose_apply (s := S384x128) (t := S128x384) [1, 0] _ transposes_S384x128_S128x384_1_0 (ix2 i j) (ix2 j i) (fun b => ?_)).trans ?_
  · match b with
    | ⟨0, _⟩ => rfl
    | ⟨1, _⟩ => rfl
  have hs : (Cert.Gcn.sel j).val = if j.val < 128 then j.val else j.val + 128 := rfl
  by_cases h1 : j.val < 128
  · refine (concatenate3_rows_apply_0 _ _ _ concatenates_S128x128_S128x128_S128x128_S384x128_d0 j i ⟨j.val, h1⟩ rfl).trans ?_
    refine extractStridedSlice_apply (s := S512x128) (t := S128x128) ![0, 0] _ slices_S512x128_S128x128_0_0 (ix2 (⟨j.val, h1⟩ : Fin 128) i) (ix2 (Cert.Gcn.sel j) i) (fun a => ?_)
    match a with
    | ⟨0, _⟩ => show (Cert.Gcn.sel j).val = 0 + j.val; rw [hs, if_pos h1]; omega
    | ⟨1, _⟩ => show i.val = 0 + i.val; omega
  · by_cases h2 : j.val < 256
    · have hb : j.val - 128 < 128 := by omega
      refine (concatenate3_rows_apply_1 _ _ _ concatenates_S128x128_S128x128_S128x128_S384x128_d0 j i ⟨j.val - 128, hb⟩ (by show j.val = 128 + (j.val - 128); omega)).trans ?_
      refine extractStridedSlice_apply (s := S512x128) (t := S128x128) ![256, 0] _ slices_S512x128_S128x128_256_0 (ix2 (⟨j.val - 128, hb⟩ : Fin 128) i) (ix2 (Cert.Gcn.sel j) i) (fun a => ?_)
      match a with
      | ⟨0, _⟩ => show (Cert.Gcn.sel j).val = 256 + (j.val - 128); rw [hs, if_neg h1]; omega
      | ⟨1, _⟩ => show i.val = 0 + i.val; omega
    · have hj := j.isLt
      have hb : j.val - 256 < 128 := by omega
      refine (concatenate3_rows_apply_2 _ _ _ concatenates_S128x128_S128x128_S128x128_S384x128_d0 j i ⟨j.val - 256, hb⟩ (by show j.val = 128 + 128 + (j.val - 256); omega)).trans ?_
      refine extractStridedSlice_apply (s := S512x128) (t := S128x128) ![384, 0] _ slices_S512x128_S128x128_384_0 (ix2 (⟨j.val - 256, hb⟩ : Fin 128) i) (ix2 (Cert.Gcn.sel j) i) (fun a => ?_)
      match a with
      | ⟨0, _⟩ => show (Cert.Gcn.sel j).val = 384 + (j.val - 256); rw [hs, if_neg h1]; omega
      | ⟨1, _⟩ => show i.val = 0 + i.val; omega

/-- Gate column j of the kernel's bias row is the sum of the two biases at `sel j`. -/
theorem V_bias_apply (j : Fin 384) :
    V m c main_v27 (ix2 (0 : Fin 1) j) = @HAdd.hAdd EReal EReal EReal instHAdd (x4 (ix1 (Cert.Gcn.sel j))) (x5 (ix1 (Cert.Gcn.sel j))) := by
  refine (congrFun (V_bias_eq m c) (ix2 (0 : Fin 1) j)).trans ?_
  refine (shapeCast_apply (s := S384) (t := S1x384) _ shapeCasts_S384_S1x384 (ix2 (0 : Fin 1) j) (ix1 j) ?_).trans ?_
  · rw [Shape.rowMajor_val_one, Shape.rowMajor_val_two]
    show j.val = 0 * 384 + j.val
    omega
  have hs : (Cert.Gcn.sel j).val = if j.val < 128 then j.val else j.val + 128 := rfl
  by_cases h1 : j.val < 128
  · refine (concatenate3_vec_apply_0 _ _ _ concatenates_S128_S128_S128_S384_d0 j ⟨j.val, h1⟩ rfl).trans ?_
    refine (extractStridedSlice_apply (s := S512) (t := S128) ![0] _ slices_S512_S128_0 (ix1 (⟨j.val, h1⟩ : Fin 128)) (ix1 (Cert.Gcn.sel j)) (fun a => ?_)).trans rfl
    match a with
    | ⟨0, _⟩ => show (Cert.Gcn.sel j).val = 0 + j.val; rw [hs, if_pos h1]; omega
  · by_cases h2 : j.val < 256
    · have hb : j.val - 128 < 128 := by omega
      refine (concatenate3_vec_apply_1 _ _ _ concatenates_S128_S128_S128_S384_d0 j ⟨j.val - 128, hb⟩ (by show j.val = 128 + (j.val - 128); omega)).trans ?_
      refine (extractStridedSlice_apply (s := S512) (t := S128) ![256] _ slices_S512_S128_256 (ix1 (⟨j.val - 128, hb⟩ : Fin 128)) (ix1 (Cert.Gcn.sel j)) (fun a => ?_)).trans rfl
      match a with
      | ⟨0, _⟩ => show (Cert.Gcn.sel j).val = 256 + (j.val - 128); rw [hs, if_neg h1]; omega
    · have hj := j.isLt
      have hb : j.val - 256 < 128 := by omega
      refine (concatenate3_vec_apply_2 _ _ _ concatenates_S128_S128_S128_S384_d0 j ⟨j.val - 256, hb⟩ (by show j.val = 128 + 128 + (j.val - 256); omega)).trans ?_
      refine (extractStridedSlice_apply (s := S512) (t := S128) ![384] _ slices_S512_S128_384 (ix1 (⟨j.val - 256, hb⟩ : Fin 128)) (ix1 (Cert.Gcn.sel j)) (fun a => ?_)).trans rfl
      match a with
      | ⟨0, _⟩ => show (Cert.Gcn.sel j).val = 384 + (j.val - 256); rw [hs, if_neg h1]; omega

/-- The kernel's message weights at (k, d) are w_gcn at (d, k). -/
theorem V_g_apply (k d : Fin 128) : V m c main_v21 (ix2 k d) = x6 (ix2 d k) := by
  refine (congrFun (V_g_eq m c) (ix2 k d)).trans ?_
  refine transpose_apply (s := S128x128) (t := S128x128) [1, 0] _ transposes_S128x128_S128x128_1_0 (ix2 k d) (ix2 d k) (fun b => ?_)
  match b with
  | ⟨0, _⟩ => rfl
  | ⟨1, _⟩ => rfl

/-- Entry n of the factor column is node n's factor. -/
theorem V_dis_apply (n : Fin 50000) : V m c main_v15 (ix2 n (0 : Fin 1)) = disT x1 (ix1 n) :=
  (congrFun (V_dis_eq m c) (ix2 n (0 : Fin 1))).trans
    (Cert.LibKeepdims.shapeCast_a_a1_apply (disT x1) shapeCasts_S50000_S50000x1 n 0)

/-! ## The index vectors and the output bias -/

set_option maxHeartbeats 1000000 in
/-- The senders' vector is the composed term. -/
theorem V_src : (V m c main_v3 : S850000.Idx → BitVec 32) = srcT x1 := by
  dsimp only [V, V0]
  simp only [hostOps0, hostOps0_1, hostOps0_2, List.flatten_cons, List.flatten_nil, List.append_nil, List.cons_append, List.nil_append]
  after_results3
  rfl

set_option maxHeartbeats 1000000 in
/-- The receivers' vector is the composed term. -/
theorem V_dst : (V m c main_v6 : S850000.Idx → BitVec 32) = dstT x1 := by
  dsimp only [V, V0]
  simp only [hostOps0, hostOps0_1, hostOps0_2, List.flatten_cons, List.flatten_nil, List.append_nil, List.cons_append, List.nil_append]
  after_results3
  rfl

set_option maxHeartbeats 1000000 in
/-- The output bias is no operation's result: it is as launched. -/
theorem V_b : V m c main_arg7 = x7 := by
  dsimp only [V, V0]
  simp only [hostOps0, hostOps0_1, hostOps0_2, List.flatten_cons, List.flatten_nil, List.append_nil, List.cons_append, List.nil_append]
  after_results3

end Cert.KHost
end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«137561_j27874337751637_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.KPay.lean ====
/-
  The kernel body's one stored value, read at an index.

  The body multiplies the block of node features by the gate weights (a 5000 × 128 by 128 × 384 product into the
  zero accumulator), adds the bias row repeated down the 5000 rows, cuts the 384 gate columns into the input,
  cell and output thirds, forms  sigmoid(o) · tanh(sigmoid(i) · tanh(g)),  multiplies that by the second weight
  matrix (5000 × 128 by 128 × 128, again into zero) and scales row q by the entry q of a column of factors.
  The narrowing format changes are the identity on the extended reals and the shape casts are casts to the same
  shape. Read at (q, d), with the blocks' entries named by the functions X, W, b_ih, b_hh, w_gcn of the
  specification, the value is the node's message at feature d times the row's factor; the kernel adds the two
  biases to each other before adding them to the sum, the specification adds them to the sum in turn: associativity.
-/
import proofs.«137561_j27874337751637_2_alg».proof.Proof.Gen.KernelIdeal.Skeleton
import proofs.«137561_j27874337751637_2_alg».proof.Proof.Spec
import proofs.«137561_j27874337751637_2_alg».proof.Proof.LibHostRead
import proofs.«137561_j27874337751637_2_alg».proof.Proof.LibPlainDot
import proofs.«137561_j27874337751637_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPay

open Cert.KernelIdeal Cert.KernelIdeal.Gen Idealize.ShloMosaic Idealize.ShloMosaic.ValueIdx

/-- The first product is rows times columns: 5000 × 128 by 128 × 384. -/
theorem plainDot_gate : Cert.LibHostRead.PlainDot dot_S5000x128_S128x384_S5000x384_1_0_0_1_n_n where
  hr := rfl
  hs := rfl
  hl0 := fun _ _ => rfl
  hl1 := fun _ _ => rfl
  hr0 := fun _ _ => rfl
  hr1 := fun _ _ => rfl

/-- The second product is rows times columns: 5000 × 128 by 128 × 128. -/
theorem plainDot_msg : Cert.LibHostRead.PlainDot dot_S5000x128_S128x128_S5000x128_1_0_0_1_n_n where
  hr := rfl
  hs := rfl
  hl0 := fun _ _ => rfl
  hl1 := fun _ _ => rfl
  hr0 := fun _ _ => rfl
  hr1 := fun _ _ => rfl

/-- The gate vector: the features against the gate weights, plus the bias row repeated down the rows. -/
def gateV (v0 : FVec Ideal S5000x128 .f32) (v2 : FVec Ideal S128x384 .f32) (v6 : FVec Ideal S1x384 .f32) :
    FVec Ideal S5000x384 .f32 :=
  addf (matmul dot_S5000x128_S128x384_S5000x384_1_0_0_1_n_n none (truncf .bf16 v0 Gen.bitsLt_bf16_f32)
      (truncf .bf16 (shapeCast S128x384 v2 Gen.shapeCasts_S128x384_S128x384) Gen.bitsLt_bf16_f32)
      (constant (F := Ideal) S5000x384 .f32 0x00000000#32))
    (broadcastTo S5000x384 (shapeCast S1x384 v6 Gen.shapeCasts_S1x384_S1x384) Gen.broadcasts_S1x384_S5000x384)

/-- The hidden state from the gate vector: sigmoid of the output third times tanh of (sigmoid of the input
    third times tanh of the cell third). -/
def hidV (g : FVec Ideal S5000x384 .f32) : FVec Ideal S5000x128 .f32 :=
  mulf (logistic (extractStridedSlice S5000x128 ![0, 256] g Gen.slices_S5000x384_o0_256_S5000x128))
    (tanh (mulf (logistic (extractStridedSlice S5000x128 ![0, 0] g Gen.slices_S5000x384_o0_0_S5000x128))
      (tanh (extractStridedSlice S5000x128 ![0, 128] g Gen.slices_S5000x384_o0_128_S5000x128))))

/-- The stored value is the hidden state against the second weights, each row scaled by its factor. -/
theorem pay_eq (v0 : FVec Ideal S5000x128 .f32) (v2 : FVec Ideal S128x384 .f32) (v6 : FVec Ideal S1x384 .f32)
    (v20 : FVec Ideal S128x128 .f32) (v24 : FVec Ideal S5000x1 .f32) :
    k0_pay1 (F := Ideal) v0 v2 v6 v20 v24
      = mulf (matmul dot_S5000x128_S128x128_S5000x128_1_0_0_1_n_n none
            (truncf .bf16 (hidV (gateV v0 v2 v6)) Gen.bitsLt_bf16_f32)
            (truncf .bf16 (shapeCast S128x128 v20 Gen.shapeCasts_S128x128_S128x128) Gen.bitsLt_bf16_f32)
            (constant (F := Ideal) S5000x128 .f32 0x00000000#32))
          (broadcastTo S5000x128 (shapeCast S5000x1 v24 Gen.shapeCasts_S5000x1_S5000x1) Gen.broadcasts_S5000x1_S5000x128) :=
  rfl

/-- The gate vector at (q, j): row q of the features against column j of the weights, plus entry j of the bias row. -/
theorem gateV_apply (v0 : FVec Ideal S5000x128 .f32) (v2 : FVec Ideal S128x384 .f32) (v6 : FVec Ideal S1x384 .f32)
    (q : Fin 5000) (j : Fin 384) :
    gateV v0 v2 v6 (ix2 q j) = (∑ k : Fin 128, v0 (ix2 q k) * v2 (ix2 k j)) + v6 (ix2 (0 : Fin 1) j) := by
  unfold gateV
  refine (addf_apply _ _ _).trans ?_
  refine congrArg₂ (· + ·) ?_ ?_
  · refine (Cert.LibPlainDot.vmatmul_apply _ plainDot_gate _ _ q j).trans ?_
    refine Finset.sum_congr rfl fun k _ => ?_
    exact congrArg (v0 (ix2 q k) * ·) (congrFun (shapeCast_self v2 _) (ix2 k j))
  · exact (broadcastTo_1b_ab_apply _ _ q j).trans (congrFun (shapeCast_self v6 _) _)

/-- With the blocks' entries named, the gate vector at (q, j) is the specification's gate column sel j at node p. -/
theorem gateV_eq_gate (v0 : FVec Ideal S5000x128 .f32) (v2 : FVec Ideal S128x384 .f32) (v6 : FVec Ideal S1x384 .f32)
    (X : Cert.Gcn.SX.Idx → EReal) (W : Cert.Gcn.SW.Idx → EReal) (bi bh : Cert.Gcn.SBias.Idx → EReal)
    (p : Fin 50000) (q : Fin 5000)
    (hx : ∀ k : Fin 128, v0 (ix2 q k) = X (ix2 p k))
    (hw : ∀ (i : Fin 128) (j : Fin 384), v2 (ix2 i j) = W (ix2 (Cert.Gcn.sel j) i))
    (hb : ∀ j : Fin 384, v6 (ix2 (0 : Fin 1) j) = bi (ix1 (Cert.Gcn.sel j)) + bh (ix1 (Cert.Gcn.sel j)))
    (j : Fin 384) :
    gateV v0 v2 v6 (ix2 q j) = Cert.Gcn.gate X W bi bh p (Cert.Gcn.sel j) := by
  rw [gateV_apply, hb j, ← add_assoc]
  unfold Cert.Gcn.gate
  refine congrArg (fun z => z + bi (ix1 (Cert.Gcn.sel j)) + bh (ix1 (Cert.Gcn.sel j))) ?_
  refine Finset.sum_congr rfl fun k _ => ?_
  rw [hx k, hw k j]

/-- The hidden state at (q, k) reads the gate vector at columns k, 128 + k and 256 + k of row q. -/
theorem hidV_apply (g : FVec Ideal S5000x384 .f32) (q : Fin 5000) (k : Fin 128) :
    hidV g (ix2 q k)
      = Ideal.logistic (g (ix2 q (⟨256 + k.val, by omega⟩ : Fin 384)))
        * Ideal.tanh (Ideal.logistic (g (ix2 q (⟨k.val, by omega⟩ : Fin 384)))
          * Ideal.tanh (g (ix2 q (⟨128 + k.val, by omega⟩ : Fin 384)))) := by
  have e0 := slice2_axis1_apply 0 g Gen.slices_S5000x384_o0_0_S5000x128 q k (⟨k.val, by omega⟩ : Fin 384) (Nat.zero_add _).symm
  have e1 := slice2_axis1_apply 128 g Gen.slices_S5000x384_o0_128_S5000x128 q k (⟨128 + k.val, by omega⟩ : Fin 384) rfl
  have e2 := slice2_axis1_apply 256 g Gen.slices_S5000x384_o0_256_S5000x128 q k (⟨256 + k.val, by omega⟩ : Fin 384) rfl
  unfold hidV
  show Ideal.logistic (extractStridedSlice S5000x128 ![0, 256] g _ (ix2 q k))
      * Ideal.tanh (Ideal.logistic (extractStridedSlice S5000x128 ![0, 0] g _ (ix2 q k))
        * Ideal.tanh (extractStridedSlice S5000x128 ![0, 128] g _ (ix2 q k))) = _
  rw [e0, e1, e2]

/-- The stored value at (q, d): node p's message at feature d times row q's factor. -/
theorem pay_apply (v0 : Vec Ideal S5000x128 .f32) (v2 : Vec Ideal S128x384 .f32) (v6 : Vec Ideal S1x384 .f32) (v20 : Vec Ideal S128x128 .f32) (v24 : Vec Ideal S5000x1 .f32)
    (X : Cert.Gcn.SX.Idx → EReal) (W : Cert.Gcn.SW.Idx → EReal) (bi bh : Cert.Gcn.SBias.Idx → EReal) (wg : Cert.Gcn.SG.Idx → EReal)
    (p : Fin 50000) (dis : EReal) (q : Fin 5000) (d : Fin 128)
    (hx : ∀ k : Fin 128, v0 (ix2 q k) = X (ix2 p k))
    (hw : ∀ (i : Fin 128) (j : Fin 384), v2 (ix2 i j) = W (ix2 (Cert.Gcn.sel j) i))
    (hb : ∀ j : Fin 384, v6 (ix2 (0 : Fin 1) j) = bi (ix1 (Cert.Gcn.sel j)) + bh (ix1 (Cert.Gcn.sel j)))
    (hg : ∀ k d' : Fin 128, v20 (ix2 k d') = wg (ix2 d' k))
    (hd : v24 (ix2 q (0 : Fin 1)) = dis) :
    k0_pay1 (F := Ideal) v0 v2 v6 v20 v24 (ix2 q d) = Cert.Gcn.msg X W bi bh wg p d * dis := by
  refine (congrFun (pay_eq v0 v2 v6 v20 v24) (ix2 q d)).trans ?_
  refine (mulf_apply _ _ _).trans ?_
  refine congrArg₂ (· * ·) ?_ ?_
  · refine (Cert.LibPlainDot.vmatmul_apply _ plainDot_msg _ _ q d).trans ?_
    unfold Cert.Gcn.msg
    refine Finset.sum_congr rfl fun k _ => ?_
    refine congrArg₂ (· * ·) ?_ ?_
    · refine (hidV_apply _ q k).trans ?_
      unfold Cert.Gcn.hidden
      rw [gateV_eq_gate v0 v2 v6 X W bi bh p q hx hw hb, gateV_eq_gate v0 v2 v6 X W bi bh p q hx hw hb,
        gateV_eq_gate v0 v2 v6 X W bi bh p q hx hw hb, Cert.Gcn.sel_I k, Cert.Gcn.sel_G k, Cert.Gcn.sel_O k]
    · exact (congrFun (shapeCast_self v20 _) (ix2 k d)).trans (hg k d)
  · exact (Cert.LibKeepdims.broadcastTo_a1_ab_apply _ _ q d).trans ((congrFun (shapeCast_self v24 _) _).trans hd)

end Cert.KPay

end
-- ==== Proof.KOut.lean ====
/-
  Entry (p, d) of the region's output array is node p's message at feature d times node p's factor.

  Node p lies in row block p / 5000 at row p % 5000. The output block of a grid point is the body's stored value
  of that point's input blocks; the features block is rows 5000·t … of x, the factor block the same rows of the
  factor column, and the three weight windows are whole arrays: the trimmed transposed gate weights, the trimmed
  summed bias, and the transposed message weights.
-/
import proofs.«137561_j27874337751637_2_alg».proof.Proof.KFinal
import proofs.«137561_j27874337751637_2_alg».proof.Proof.KHost
import proofs.«137561_j27874337751637_2_alg».proof.Proof.KPay
import proofs.«137561_j27874337751637_2_alg».proof.Proof.KTerms
import proofs.«137561_j27874337751637_2_alg».proof.Proof.Spec

set_option maxRecDepth 16384

noncomputable section

namespace Cert.KOut

open Cert.KernelIdeal Cert.KernelIdeal.Gen Cert.KernelIdeal.Frm
open Idealize.ShloMosaic Idealize.ShloMosaic.TcCoe Idealize.ShloMosaic.ValueIdx

variable (m : (ℓ : Loc nD τ sig) → Buf (Elt Ideal) ℓ) (c : Dev nD)

theorem arr_apply (p : Fin 50000) (d : Fin 128) :
    (dats m 0 c).arrAt 5 cfg0.N (ix2 p d)
      = Cert.Gcn.msg (m ((c.tc : Thread nD τ).loc main_arg0)) (m ((c.tc : Thread nD τ).loc main_arg2))
          (m ((c.tc : Thread nD τ).loc main_arg4)) (m ((c.tc : Thread nD τ).loc main_arg5))
          (m ((c.tc : Thread nD τ).loc main_arg6)) p d
        * Cert.KTerms.disT (m ((c.tc : Thread nD τ).loc main_arg1)) (ix1 p) := by
  have hp := p.isLt
  have hrow : 5000 * (p.val / 5000) + p.val % 5000 = p.val := Nat.div_add_mod p.val 5000
  rw [Cert.KFinal.final_apply]
  refine Cert.KPay.pay_apply _ _ _ _ _ _ _ _ _ _ p _ ⟨p.val % 5000, Nat.mod_lt _ (by decide)⟩ d ?_ ?_ ?_ ?_ ?_
  · intro k
    rw [Cert.KFinal.blk0_apply, Cert.KHost.V_x]
    exact congrArg (fun r => (m ((c.tc : Thread nD τ).loc main_arg0)) (ix2 r k)) (Fin.ext hrow)
  · intro i j
    rw [Cert.KFinal.blk1_eq]; exact Cert.KHost.V_w_apply m c i j
  · intro j
    rw [Cert.KFinal.blk2_eq]; exact Cert.KHost.V_bias_apply m c j
  · intro k d'
    rw [Cert.KFinal.blk3_eq]; exact Cert.KHost.V_g_apply m c k d'
  · rw [Cert.KFinal.blk4_apply]
    refine (congrArg (fun r => V m c main_v15 (ix2 r (0 : Fin 1))) (Fin.ext hrow)).trans ?_
    exact Cert.KHost.V_dis_apply m c p

end Cert.KOut

end
-- ==== Proof.KRefTerms.lean ====
/-
  The four vectors both programs compute from the edge array alone — every edge's sender, every edge's receiver,
  every node's in-degree, every node's factor — are the same terms in the two programs: the same operations, applied
  in the same order to the same operands, over shapes that are the same literals under the two programs' names and
  side conditions that are propositions. The receiver vector is identified first; the degree, which is built on
  it, and the factor, which is built on the degree, then follow one step at a time.
-/
import proofs.«137561_j27874337751637_2_alg».proof.Proof.KTerms
import proofs.«137561_j27874337751637_2_alg».proof.Proof.RefReadP

noncomputable section

namespace Cert.KRefTerms

open Idealize.ShloMosaic
open Cert.ReferenceIdeal.ReadP

variable [Cert.KernelIdeal.Facts] [Cert.ReferenceIdeal.Facts]

/-- Every edge's sender: the first row of the edge array, then one self-loop per node. -/
theorem src_eq (x1 : (⟨Cert.KernelIdeal.S2x800000, .i32⟩ : BufTy).Contents (Elt Ideal)) :
    Cert.KTerms.srcT x1 = Cert.ReferenceIdeal.ReadP.val_main_v31 (F := Ideal) x1 := by
  unfold Cert.KTerms.srcT val_main_v31 val_main_v30 val_main_v29 val_main_v28
  rfl

/-- Every edge's receiver: the second row of the edge array, then one self-loop per node. -/
theorem dst_eq (x1 : (⟨Cert.KernelIdeal.S2x800000, .i32⟩ : BufTy).Contents (Elt Ideal)) :
    Cert.KTerms.dstT x1 = Cert.ReferenceIdeal.ReadP.val_main_v34 (F := Ideal) x1 := by
  unfold Cert.KTerms.dstT val_main_v34 val_main_v33 val_main_v32 val_main_v28
  rfl

/-- Every node's in-degree: a one added at the receiver of every edge, from zero. -/
theorem deg_eq (x1 : (⟨Cert.KernelIdeal.S2x800000, .i32⟩ : BufTy).Contents (Elt Ideal)) :
    Cert.KTerms.degT x1 = Cert.ReferenceIdeal.ReadP.val_main_v38 (F := Ideal) x1 := by
  unfold Cert.KTerms.degT val_main_v38 val_main_v37 val_main_v36 val_main_v35 val_main_cst_3 val_main_cst_4
  rw [dst_eq x1]
  rfl

/-- Every node's factor: the reciprocal square root of a positive degree, else zero. -/
theorem dis_eq (x1 : (⟨Cert.KernelIdeal.S2x800000, .i32⟩ : BufTy).Contents (Elt Ideal)) :
    Cert.KTerms.disT x1 = Cert.ReferenceIdeal.ReadP.val_main_v42 (F := Ideal) x1 := by
  unfold Cert.KTerms.disT val_main_v42 val_main_v41 val_main_v40 val_main_v39 val_main_call0_v1 val_main_call0_v0
    val_main_cst_5 val_main_cst_6
  rw [deg_eq x1]

end Cert.KRefTerms

end
-- ==== Proof.lean ====
/-
  The five claims about the single-step LSTM followed by a graph convolution.

  The kernel program computes each node's message in a pipelined region over ten blocks of 5000 nodes, already
  scaled by the node's own normalisation factor, then gathers the messages along the edges, adds them up per
  receiving node, scales each sum by the receiver's factor, adds the bias and clamps at zero. The reference
  scales every message by both factors before adding. On the extended reals the two agree because a factor is
  a non-negative number other than +inf, and such a number distributes over a sum.
-/
import proofs.«137561_j27874337751637_2_alg».proof.Defs
import proofs.«137561_j27874337751637_2_alg».proof.Proof.Gen.Kernel
import proofs.«137561_j27874337751637_2_alg».proof.Proof.Gen.KernelIdeal
import proofs.«137561_j27874337751637_2_alg».proof.Proof.Gen.ReferenceIdeal
import proofs.«137561_j27874337751637_2_alg».proof.Proof.Gen.Pre_finite_inputs
import proofs.«137561_j27874337751637_2_alg».proof.Proof.KFrame
import proofs.«137561_j27874337751637_2_alg».proof.Proof.KIFrame
import proofs.«137561_j27874337751637_2_alg».proof.Proof.RefRunP
import proofs.«137561_j27874337751637_2_alg».proof.Proof.RefReadP
import proofs.«137561_j27874337751637_2_alg».proof.Proof.RefValue
import proofs.«137561_j27874337751637_2_alg».proof.Proof.Spec
import proofs.«137561_j27874337751637_2_alg».proof.Proof.KRun
import proofs.«137561_j27874337751637_2_alg».proof.Proof.KTail
import proofs.«137561_j27874337751637_2_alg».proof.Proof.KOut
import proofs.«137561_j27874337751637_2_alg».proof.Proof.KTerms
import proofs.«137561_j27874337751637_2_alg».proof.Proof.KRefTerms
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments as they were. -/
theorem frame_k [Cert.Kernel.Facts] [Cert.Pre_finite_inputs.Facts] : Cert.frame_Kernel :=
  fun m ρ _ => Cert.Kernel.Frm.frame m ρ

/-- So does the kernel program read on the extended reals. -/
theorem frame_ki [Cert.KernelIdeal.Facts] [Cert.Pre_finite_inputs.Facts] : Cert.frame_KernelIdeal :=
  fun m ρ _ => Cert.KernelIdeal.Frm.frame m ρ

/-- The reference is a straight line of host operations: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- The idealization rewrote no operation. -/
theorem preserves : Cert.preserves_Kernel_KernelIdeal := trivial

/-- Every node's factor is a non-negative number other than +inf: it is the reciprocal square root of a positive
    degree, or zero. -/
theorem factor_ok [Cert.KernelIdeal.Facts] [Cert.ReferenceIdeal.Facts]
    (x1 : (⟨Cert.KernelIdeal.S2x800000, .i32⟩ : BufTy).Contents (Elt Ideal)) (n : Fin 50000) :
    0 ≤ Cert.KTerms.disT x1 (ix1 n) ∧ Cert.KTerms.disT x1 (ix1 n) ≠ ⊤ := by
  rw [Cert.KRefTerms.dis_eq, Cert.RefValue.dis_apply]
  exact Cert.Gcn.factor_nonneg_ne_top _

/-- The two programs' results agree entry by entry when their arguments do: the kernel's sum of already scaled
    messages, scaled by the receiver's factor, is the reference's sum of messages scaled by both factors. -/
theorem result_eq [Cert.KernelIdeal.Facts] [Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.ValueP.res_main_v76 (F := Ideal) m' c : Cert.KernelIdeal.S50000x128.Idx → EReal)
      = (Cert.KernelIdeal.Frm.resK m c : Cert.KernelIdeal.S50000x128.Idx → EReal) := by
  funext i
  obtain ⟨n, d, rfl⟩ : ∃ (n : Fin 50000) (d : Fin 128), i = ix2 n d := ⟨i 0, i 1, eq_ix2 i⟩
  rw [Cert.ReferenceIdeal.ReadP.val_main_v76_eq, Cert.RefValue.out_apply, h0, h1, h2, h4, h5, h6, h7]
  refine Eq.symm ?_
  refine (Cert.KTail.tail_apply m c ((Cert.KernelIdeal.Frm.dats m 0 c).arrAt 5 Cert.KernelIdeal.cfg0.N)
    (Cert.KTerms.disT (m ((c.tc : Thread Cert.KernelIdeal.nD Cert.KernelIdeal.τ).loc Cert.KernelIdeal.main_arg1)))
    (Cert.KTerms.srcT (m ((c.tc : Thread Cert.KernelIdeal.nD Cert.KernelIdeal.τ).loc Cert.KernelIdeal.main_arg1)))
    (Cert.KTerms.dstT (m ((c.tc : Thread Cert.KernelIdeal.nD Cert.KernelIdeal.τ).loc Cert.KernelIdeal.main_arg1)))
    (m ((c.tc : Thread Cert.KernelIdeal.nD Cert.KernelIdeal.τ).loc Cert.KernelIdeal.main_arg7))
    (fun _ _ => rfl) (Cert.KHost.V_dis_apply m c)
    (fun e => congrFun (Cert.KHost.V_src m c) (ix1 e)) (fun e => congrFun (Cert.KHost.V_dst m c) (ix1 e))
    (fun d' => congrFun (Cert.KHost.V_b m c) (ix1 d')) n d).trans ?_
  rw [Cert.Gcn.outKer_eq_outRef
    (Cert.ReferenceIdeal.ReadP.val_main_v59 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    _ _ _ _ _ (factor_ok _) (fun p d' => by rw [Cert.KOut.arr_apply, Cert.RefValue.msg_apply]) n d,
    Cert.KRefTerms.dis_eq, Cert.KRefTerms.src_eq, Cert.KRefTerms.dst_eq]

/-- On the extended reals the kernel program and the reference, run from memories that agree on the arguments,
    both end, with the same result array and their arguments as launched. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Frm.resK m c, Cert.KernelIdeal.Frm.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, -, h4, h5, h6, h7⟩ := hagree c
  exact result_eq m m' c h0 h1 h2 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
